-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S100000x200 : Shape := ⟨2, ![100000, 200]⟩
abbrev S500x200 : Shape := ⟨2, ![500, 200]⟩
abbrev S6144x200 : Shape := ⟨2, ![6144, 200]⟩
abbrev S200 : Shape := ⟨1, ![200]⟩
abbrev S200x288 : Shape := ⟨2, ![200, 288]⟩
abbrev S288 : Shape := ⟨1, ![288]⟩
abbrev S1 : Shape := ⟨1, ![1]⟩
abbrev S32 : Shape := ⟨1, ![32]⟩
abbrev S100000 : Shape := ⟨1, ![100000]⟩
abbrev S_ : Shape := ⟨0, ![]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S500x200 : S_.BroadcastsInDim S500x200 (![] : Fin 0 → Fin S500x200.rank)
  reducesTo_S500x200_S_d0_1 : S500x200.ReducesTo [0, 1] S_
  bcast_S_S6144x200 : S_.BroadcastsInDim S6144x200 (![] : Fin 0 → Fin S6144x200.rank)
  reducesTo_S6144x200_S_d0_1 : S6144x200.ReducesTo [0, 1] S_
  bcast_S_S200 : S_.BroadcastsInDim S200 (![] : Fin 0 → Fin S200.rank)
  reducesTo_S200_S_d0 : S200.ReducesTo [0] S_
  bcast_S_S200x288 : S_.BroadcastsInDim S200x288 (![] : Fin 0 → Fin S200x288.rank)
  reducesTo_S200x288_S_d0_1 : S200x288.ReducesTo [0, 1] S_
  bcast_S_S288 : S_.BroadcastsInDim S288 (![] : Fin 0 → Fin S288.rank)
  reducesTo_S288_S_d0 : S288.ReducesTo [0] S_
  bcast_S_S1 : S_.BroadcastsInDim S1 (![] : Fin 0 → Fin S1.rank)
  reducesTo_S1_S_d0 : S1.ReducesTo [0] S_
  bcast_S_S32 : S_.BroadcastsInDim S32 (![] : Fin 0 → Fin S32.rank)
  reducesTo_S32_S_d0 : S32.ReducesTo [0] S_
  bcast_S_S100000 : S_.BroadcastsInDim S100000 (![] : Fin 0 → Fin S100000.rank)
  reducesTo_S100000_S_d0 : S100000.ReducesTo [0] S_

variable [Facts]

def fn_part6 {F : FTy → Type} [FloatOps F] (main_arg19 : FVec F S200 .f32) (main_v99 : IVec S_ 1) (main_v101 : FVec F S32 .f32) : IVec S_ 1 :=
  let main_cst_40 : FVec F S_ .f32 := constant S_ .f32 0x00000000#32
  let main_v102 : FVec F S32 .f32 := broadcastInDim S32 ![] bcast_S_S32 main_cst_40
  let main_v103 : IVec S32 1 := cmpf .ogt main_v101 main_v102
  let main_c_41 : IVec S_ 1 := constantI S_ 1 1#1
  let main_v104 : IVec S_ 1 := (fun x v => Host.reduce IntOp.andi x v reducesTo_S32_S_d0 h_S_) main_v103 main_c_41
  let main_v105 : IVec S_ 1 := andi main_v99 main_v104
  let main_cst_42 : FVec F S_ .f32 := constant S_ .f32 0x3727C5AC#32
  let main_v106 : FVec F S200 .f32 := broadcastInDim S200 ![] bcast_S_S200 main_cst_42
  let main_v107 : FVec F S200 .f32 := addf main_arg19 main_v106
  let main_cst_43 : FVec F S_ .f32 := constant S_ .f32 0x00000000#32
  let main_v108 : FVec F S200 .f32 := broadcastInDim S200 ![] bcast_S_S200 main_cst_43
  let main_v109 : IVec S200 1 := cmpf .ogt main_v107 main_v108
  let main_c_44 : IVec S_ 1 := constantI S_ 1 1#1
  let main_v110 : IVec S_ 1 := (fun x v => Host.reduce IntOp.andi x v reducesTo_S200_S_d0 h_S_) main_v109 main_c_44
  let main_v111 : IVec S_ 1 := andi main_v105 main_v110
  main_v111

def fn_part5 {F : FTy → Type} [FloatOps F] (main_arg11 : FVec F S1 .f32) (main_arg15 : FVec F S32 .f32) (main_arg19 : FVec F S200 .f32) (main_arg20 : FVec F S100000 .f32) (main_v83 : IVec S_ 1) (main_v84 : FVec F S200 .f32) (main_cst_32 : FVec F S_ .f32) : IVec S_ 1 :=
  let main_v85 : FVec F S200 .f32 := broadcastInDim S200 ![] bcast_S_S200 main_cst_32
  let main_v86 : IVec S200 1 := cmpf .olt main_v84 main_v85
  let main_c_33 : IVec S_ 1 := constantI S_ 1 1#1
  let main_v87 : IVec S_ 1 := (fun x v => Host.reduce IntOp.andi x v reducesTo_S200_S_d0 h_S_) main_v86 main_c_33
  let main_v88 : IVec S_ 1 := andi main_v83 main_v87
  let main_v89 : FVec F S100000 .f32 := Host.absf main_arg20
  let main_cst_34 : FVec F S_ .f32 := constant S_ .f32 0x7F800000#32
  let main_v90 : FVec F S100000 .f32 := broadcastInDim S100000 ![] bcast_S_S100000 main_cst_34
  let main_v91 : IVec S100000 1 := cmpf .olt main_v89 main_v90
  let main_c_35 : IVec S_ 1 := constantI S_ 1 1#1
  let main_v92 : IVec S_ 1 := (fun x v => Host.reduce IntOp.andi x v reducesTo_S100000_S_d0 h_S_) main_v91 main_c_35
  let main_v93 : IVec S_ 1 := andi main_v88 main_v92
  let main_cst_36 : FVec F S_ .f32 := constant S_ .f32 0x3727C5AC#32
  let main_v94 : FVec F S1 .f32 := broadcastInDim S1 ![] bcast_S_S1 main_cst_36
  let main_v95 : FVec F S1 .f32 := addf main_arg11 main_v94
  let main_cst_37 : FVec F S_ .f32 := constant S_ .f32 0x00000000#32
  let main_v96 : FVec F S1 .f32 := broadcastInDim S1 ![] bcast_S_S1 main_cst_37
  let main_v97 : IVec S1 1 := cmpf .ogt main_v95 main_v96
  let main_c_38 : IVec S_ 1 := constantI S_ 1 1#1
  let main_v98 : IVec S_ 1 := (fun x v => Host.reduce IntOp.andi x v reducesTo_S1_S_d0 h_S_) main_v97 main_c_38
  let main_v99 : IVec S_ 1 := andi main_v93 main_v98
  let main_cst_39 : FVec F S_ .f32 := constant S_ .f32 0x3727C5AC#32
  let main_v100 : FVec F S32 .f32 := broadcastInDim S32 ![] bcast_S_S32 main_cst_39
  let main_v101 : FVec F S32 .f32 := addf main_arg15 main_v100
  fn_part6 (F := F) main_arg19 main_v99 main_v101

def fn_part4 {F : FTy → Type} [FloatOps F] (main_arg11 : FVec F S1 .f32) (main_arg15 : FVec F S32 .f32) (main_arg16 : FVec F S200 .f32) (main_arg17 : FVec F S200 .f32) (main_arg18 : FVec F S200 .f32) (main_arg19 : FVec F S200 .f32) (main_arg20 : FVec F S100000 .f32) (main_v63 : IVec S_ 1) (main_v67 : IVec S_ 1) : IVec S_ 1 :=
  let main_v68 : IVec S_ 1 := andi main_v63 main_v67
  let main_v69 : FVec F S200 .f32 := Host.absf main_arg16
  let main_cst_26 : FVec F S_ .f32 := constant S_ .f32 0x7F800000#32
  let main_v70 : FVec F S200 .f32 := broadcastInDim S200 ![] bcast_S_S200 main_cst_26
  let main_v71 : IVec S200 1 := cmpf .olt main_v69 main_v70
  let main_c_27 : IVec S_ 1 := constantI S_ 1 1#1
  let main_v72 : IVec S_ 1 := (fun x v => Host.reduce IntOp.andi x v reducesTo_S200_S_d0 h_S_) main_v71 main_c_27
  let main_v73 : IVec S_ 1 := andi main_v68 main_v72
  let main_v74 : FVec F S200 .f32 := Host.absf main_arg17
  let main_cst_28 : FVec F S_ .f32 := constant S_ .f32 0x7F800000#32
  let main_v75 : FVec F S200 .f32 := broadcastInDim S200 ![] bcast_S_S200 main_cst_28
  let main_v76 : IVec S200 1 := cmpf .olt main_v74 main_v75
  let main_c_29 : IVec S_ 1 := constantI S_ 1 1#1
  let main_v77 : IVec S_ 1 := (fun x v => Host.reduce IntOp.andi x v reducesTo_S200_S_d0 h_S_) main_v76 main_c_29
  let main_v78 : IVec S_ 1 := andi main_v73 main_v77
  let main_v79 : FVec F S200 .f32 := Host.absf main_arg18
  let main_cst_30 : FVec F S_ .f32 := constant S_ .f32 0x7F800000#32
  let main_v80 : FVec F S200 .f32 := broadcastInDim S200 ![] bcast_S_S200 main_cst_30
  let main_v81 : IVec S200 1 := cmpf .olt main_v79 main_v80
  let main_c_31 : IVec S_ 1 := constantI S_ 1 1#1
  let main_v82 : IVec S_ 1 := (fun x v => Host.reduce IntOp.andi x v reducesTo_S200_S_d0 h_S_) main_v81 main_c_31
  let main_v83 : IVec S_ 1 := andi main_v78 main_v82
  let main_v84 : FVec F S200 .f32 := Host.absf main_arg19
  let main_cst_32 : FVec F S_ .f32 := constant S_ .f32 0x7F800000#32
  fn_part5 (F := F) main_arg11 main_arg15 main_arg19 main_arg20 main_v83 main_v84 main_cst_32

def fn_part3 {F : FTy → Type} [FloatOps F] (main_arg11 : FVec F S1 .f32) (main_arg13 : FVec F S32 .f32) (main_arg14 : FVec F S32 .f32) (main_arg15 : FVec F S32 .f32) (main_arg16 : FVec F S200 .f32) (main_arg17 : FVec F S200 .f32) (main_arg18 : FVec F S200 .f32) (main_arg19 : FVec F S200 .f32) (main_arg20 : FVec F S100000 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg11 main_arg15 main_arg16 main_arg17 main_arg18 main_arg19 main_arg20 main_v63 main_v67

def fn_part2 {F : FTy → Type} [FloatOps F] (main_arg9 : FVec F S1 .f32) (main_arg10 : FVec F S1 .f32) (main_arg11 : FVec F S1 .f32) (main_arg12 : FVec F S32 .f32) (main_arg13 : FVec F S32 .f32) (main_arg14 : FVec F S32 .f32) (main_arg15 : FVec F S32 .f32) (main_arg16 : FVec F S200 .f32) (main_arg17 : FVec F S200 .f32) (main_arg18 : FVec F S200 .f32) (main_arg19 : FVec F S200 .f32) (main_arg20 : FVec F S100000 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg11 main_arg13 main_arg14 main_arg15 main_arg16 main_arg17 main_arg18 main_arg19 main_arg20 main_v48 main_v49 main_v50

def fn_part1 {F : FTy → Type} [FloatOps F] (main_arg6 : FVec F S200x288 .f32) (main_arg7 : FVec F S288 .f32) (main_arg8 : FVec F S1 .f32) (main_arg9 : FVec F S1 .f32) (main_arg10 : FVec F S1 .f32) (main_arg11 : FVec F S1 .f32) (main_arg12 : FVec F S32 .f32) (main_arg13 : FVec F S32 .f32) (main_arg14 : FVec F S32 .f32) (main_arg15 : FVec F S32 .f32) (main_arg16 : FVec F S200 .f32) (main_arg17 : FVec F S200 .f32) (main_arg18 : FVec F S200 .f32) (main_arg19 : FVec F S200 .f32) (main_arg20 : FVec F S100000 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S200x288 .f32 := Host.absf main_arg6
  let main_cst_6 : FVec F S_ .f32 := constant S_ .f32 0x7F800000#32
  let main_v20 : FVec F S200x288 .f32 := broadcastInDim S200x288 ![] bcast_S_S200x288 main_cst_6
  let main_v21 : IVec S200x288 1 := cmpf .olt main_v19 main_v20
  let main_c_7 : IVec S_ 1 := constantI S_ 1 1#1
  let main_v22 : IVec S_ 1 := (fun x v => Host.reduce IntOp.andi x v reducesTo_S200x288_S_d0_1 h_S_) main_v21 main_c_7
  let main_v23 : IVec S_ 1 := andi main_v18 main_v22
  let main_v24 : FVec F S288 .f32 := Host.absf main_arg7
  let main_cst_8 : FVec F S_ .f32 := constant S_ .f32 0x7F800000#32
  let main_v25 : FVec F S288 .f32 := broadcastInDim S288 ![] bcast_S_S288 main_cst_8
  let main_v26 : IVec S288 1 := cmpf .olt main_v24 main_v25
  let main_c_9 : IVec S_ 1 := constantI S_ 1 1#1
  let main_v27 : IVec S_ 1 := (fun x v => Host.reduce IntOp.andi x v reducesTo_S288_S_d0 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : IVec S1024 32) (main_arg1 : IVec S1024 32) (main_arg2 : FVec F S100000x200 .f32) (main_arg3 : FVec F S500x200 .f32) (main_arg4 : FVec F S6144x200 .f32) (main_arg5 : FVec F S200 .f32) (main_arg6 : FVec F S200x288 .f32) (main_arg7 : FVec F S288 .f32) (main_arg8 : FVec F S1 .f32) (main_arg9 : FVec F S1 .f32) (main_arg10 : FVec F S1 .f32) (main_arg11 : FVec F S1 .f32) (main_arg12 : FVec F S32 .f32) (main_arg13 : FVec F S32 .f32) (main_arg14 : FVec F S32 .f32) (main_arg15 : FVec F S32 .f32) (main_arg16 : FVec F S200 .f32) (main_arg17 : FVec F S200 .f32) (main_arg18 : FVec F S200 .f32) (main_arg19 : FVec F S200 .f32) (main_arg20 : FVec F S100000 .f32) : IVec S_ 1 :=
  let main_v0 : FVec F S100000x200 .f32 := Host.absf main_arg2
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S500x200 .f32 := Host.absf main_arg3
  let main_cst_0 : FVec F S_ .f32 := constant S_ .f32 0x7F800000#32
  let main_v5 : FVec F S500x200 .f32 := broadcastInDim S500x200 ![] bcast_S_S500x200 main_cst_0
  let main_v6 : IVec S500x200 1 := cmpf .olt main_v4 main_v5
  let main_c_1 : IVec S_ 1 := constantI S_ 1 1#1
  let main_v7 : IVec S_ 1 := (fun x v => Host.reduce IntOp.andi x v reducesTo_S500x200_S_d0_1 h_S_) main_v6 main_c_1
  let main_v8 : IVec S_ 1 := andi main_v3 main_v7
  let main_v9 : FVec F S6144x200 .f32 := Host.absf main_arg4
  let main_cst_2 : FVec F S_ .f32 := constant S_ .f32 0x7F800000#32
  let main_v10 : FVec F S6144x200 .f32 := broadcastInDim S6144x200 ![] bcast_S_S6144x200 main_cst_2
  let main_v11 : IVec S6144x200 1 := cmpf .olt main_v9 main_v10
  let main_c_3 : IVec S_ 1 := constantI S_ 1 1#1
  let main_v12 : IVec S_ 1 := (fun x v => Host.reduce IntOp.andi x v reducesTo_S6144x200_S_d0_1 h_S_) main_v11 main_c_3
  let main_v13 : IVec S_ 1 := andi main_v8 main_v12
  let main_v14 : FVec F S200 .f32 := Host.absf main_arg5
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S1024 : Shape := ⟨1, ![1024]⟩
abbrev S100000x200 : Shape := ⟨2, ![100000, 200]⟩
abbrev S500x200 : Shape := ⟨2, ![500, 200]⟩
abbrev S6144x200 : Shape := ⟨2, ![6144, 200]⟩
abbrev S200 : Shape := ⟨1, ![200]⟩
abbrev S200x288 : Shape := ⟨2, ![200, 288]⟩
abbrev S288 : Shape := ⟨1, ![288]⟩
abbrev S1 : Shape := ⟨1, ![1]⟩
abbrev S32 : Shape := ⟨1, ![32]⟩
abbrev S100000 : Shape := ⟨1, ![100000]⟩
abbrev S_ : Shape := ⟨0, ![]⟩
abbrev S1024x1 : Shape := ⟨2, ![1024, 1]⟩
abbrev S1024x200 : Shape := ⟨2, ![1024, 200]⟩
abbrev S64x200 : Shape := ⟨2, ![64, 200]⟩
abbrev S1x1 : Shape := ⟨2, ![1, 1]⟩
abbrev S64x288 : Shape := ⟨2, ![64, 288]⟩
abbrev S1x288 : Shape := ⟨2, ![1, 288]⟩
abbrev S64x32x9 : Shape := ⟨3, ![64, 32, 9]⟩
abbrev S64x32x192 : Shape := ⟨3, ![64, 32, 192]⟩
abbrev S64x32x1 : Shape := ⟨3, ![64, 32, 1]⟩
abbrev S64x32 : Shape := ⟨2, ![64, 32]⟩
abbrev S64x192 : Shape := ⟨2, ![64, 192]⟩
abbrev S64x1x192 : Shape := ⟨3, ![64, 1, 192]⟩
abbrev S1x32x1 : Shape := ⟨3, ![1, 32, 1]⟩
abbrev S64x6144 : Shape := ⟨2, ![64, 6144]⟩
abbrev S1x200 : Shape := ⟨2, ![1, 200]⟩
abbrev S101376x200 : Shape := ⟨2, ![101376, 200]⟩
abbrev S101376 : Shape := ⟨1, ![101376]⟩
abbrev S1x101376 : Shape := ⟨2, ![1, 101376]⟩
abbrev S1024x101376 : Shape := ⟨2, ![1024, 101376]⟩
abbrev S1536x200 : Shape := ⟨2, ![1536, 200]⟩
abbrev S1x1536 : Shape := ⟨2, ![1, 1536]⟩
abbrev S1024x1536 : Shape := ⟨2, ![1024, 1536]⟩
abbrev S1024x100000 : Shape := ⟨2, ![1024, 100000]⟩

abbrev nBuf : Space → Nat
  | .hbm => 49
  | .vmem => 29
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S100000x200, .f32⟩
  | .hbm, ⟨3, _⟩ => ⟨S500x200, .f32⟩
  | .hbm, ⟨4, _⟩ => ⟨S6144x200, .f32⟩
  | .hbm, ⟨5, _⟩ => ⟨S200, .f32⟩
  | .hbm, ⟨6, _⟩ => ⟨S200x288, .f32⟩
  | .hbm, ⟨7, _⟩ => ⟨S288, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S200, .f32⟩
  | .hbm, ⟨17, _⟩ => ⟨S200, .f32⟩
  | .hbm, ⟨18, _⟩ => ⟨S200, .f32⟩
  | .hbm, ⟨19, _⟩ => ⟨S200, .f32⟩
  | .hbm, ⟨20, _⟩ => ⟨S100000, .f32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x200, .f32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1024x200, .f32⟩
  | .hbm, ⟨39, _⟩ => ⟨S1024x200, .f32⟩
  | .hbm, ⟨40, _⟩ => ⟨S_, .i32⟩
  | .hbm, ⟨41, _⟩ => ⟨S_, .f32⟩
  | .hbm, ⟨42, _⟩ => ⟨S101376x200, .f32⟩
  | .hbm, ⟨43, _⟩ => ⟨S_, .i32⟩
  | .hbm, ⟨44, _⟩ => ⟨S_, .f32⟩
  | .hbm, ⟨45, _⟩ => ⟨S101376, .f32⟩
  | .hbm, ⟨46, _⟩ => ⟨S1x101376, .f32⟩
  | .hbm, ⟨47, _⟩ => ⟨S1024x101376, .f32⟩
  | .hbm, ⟨48, _⟩ => ⟨S1024x100000, .f32⟩
  | .local _ .vmem, ⟨0, _⟩ => ⟨S64x200, .f32⟩
  | .local _ .vmem, ⟨1, _⟩ => ⟨S64x200, .f32⟩
  | .local _ .vmem, ⟨2, _⟩ => ⟨S64x200, .f32⟩
  | .local _ .vmem, ⟨3, _⟩ => ⟨S64x200, .f32⟩
  | .local _ .vmem, ⟨4, _⟩ => ⟨S200x288, .f32⟩
  | .local _ .vmem, ⟨5, _⟩ => ⟨S288, .f32⟩
  | .local _ .vmem, ⟨6, _⟩ => ⟨S1, .f32⟩
  | .local _ .vmem, ⟨7, _⟩ => ⟨S1, .f32⟩
  | .local _ .vmem, ⟨8, _⟩ => ⟨S1, .f32⟩
  | .local _ .vmem, ⟨9, _⟩ => ⟨S1, .f32⟩
  | .local _ .vmem, ⟨10, _⟩ => ⟨S32, .f32⟩
  | .local _ .vmem, ⟨11, _⟩ => ⟨S32, .f32⟩
  | .local _ .vmem, ⟨12, _⟩ => ⟨S32, .f32⟩
  | .local _ .vmem, ⟨13, _⟩ => ⟨S32, .f32⟩
  | .local _ .vmem, ⟨14, _⟩ => ⟨S200, .f32⟩
  | .local _ .vmem, ⟨15, _⟩ => ⟨S200, .f32⟩
  | .local _ .vmem, ⟨16, _⟩ => ⟨S200, .f32⟩
  | .local _ .vmem, ⟨17, _⟩ => ⟨S200, .f32⟩
  | .local _ .vmem, ⟨18, _⟩ => ⟨S6144x200, .f32⟩
  | .local _ .vmem, ⟨19, _⟩ => ⟨S200, .f32⟩
  | .local _ .vmem, ⟨20, _⟩ => ⟨S64x200, .f32⟩
  | .local _ .vmem, ⟨21, _⟩ => ⟨S64x200, .f32⟩
  | .local _ .vmem, ⟨22, _⟩ => ⟨S1024x200, .f32⟩
  | .local _ .vmem, ⟨23, _⟩ => ⟨S1536x200, .f32⟩
  | .local _ .vmem, ⟨24, _⟩ => ⟨S1536x200, .f32⟩
  | .local _ .vmem, ⟨25, _⟩ => ⟨S1x1536, .f32⟩
  | .local _ .vmem, ⟨26, _⟩ => ⟨S1x1536, .f32⟩
  | .local _ .vmem, ⟨27, _⟩ => ⟨S1024x1536, .f32⟩
  | .local _ .vmem, ⟨28, _⟩ => ⟨S1024x1536, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_call0_v0 : Ref sig .tc := ⟨.hbm, 41, rfl⟩
abbrev main_v15 : Ref sig .tc := ⟨.hbm, 42, rfl⟩
abbrev main_c_4 : Ref sig .tc := ⟨.hbm, 43, rfl⟩
abbrev main_call1_v0 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc1_stg0_0 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc1_sem0_0 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S200x288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S200 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S200 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S200 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S200 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S6144x200 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S200 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S64x200 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![66], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x200 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1536x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  inb_S64x200_S64x200_0_0 : ∀ a, (![0, 0] : Fin 2 → Nat) a + S64x200.size a ≤ S64x200.size a
  h_S64x200 : 0 < S64x200.numel
  shapeCasts_S64x200_S64x200 : S64x200.ShapeCasts S64x200
  inb_S1_S1_0 : ∀ a, (![0] : Fin 1 → Nat) a + S1.size a ≤ S1.size a
  h_S1 : 0 < S1.numel
  shapeCasts_S1_S1x1 : S1.ShapeCasts S1x1
  broadcasts_S1x1_S64x200 : S1x1.Broadcasts S64x200
  inb_S200x288_S200x288_0_0 : ∀ a, (![0, 0] : Fin 2 → Nat) a + S200x288.size a ≤ S200x288.size a
  h_S200x288 : 0 < S200x288.numel
  inb_S288_S288_0 : ∀ a, (![0] : Fin 1 → Nat) a + S288.size a ≤ S288.size a
  h_S288 : 0 < S288.numel
  bitsLt_bf16_f32 : FTy.bits .bf16 < FTy.bits .f32
  shapeCasts_S288_S1x288 : S288.ShapeCasts S1x288
  broadcasts_S1x288_S64x288 : S1x288.Broadcasts S64x288
  shapeCasts_S64x288_S64x32x9 : S64x288.ShapeCasts S64x32x9
  slices_S64x32x9_o0_0_0_S64x32x1 : S64x32x9.Slices ![0, 0, 0] S64x32x1
  shapeCasts_S64x32x1_S64x32 : S64x32x1.ShapeCasts S64x32
  shapeCasts_S64x32_S64x32x1 : S64x32.ShapeCasts S64x32x1
  slices_S64x200_o0_0_S64x192 : S64x200.Slices ![0, 0] S64x192
  shapeCasts_S64x192_S64x1x192 : S64x192.ShapeCasts S64x1x192
  broadcasts_S64x32x1_S64x32x192 : S64x32x1.Broadcasts S64x32x192
  broadcasts_S64x1x192_S64x32x192 : S64x1x192.Broadcasts S64x32x192
  slices_S64x32x9_o0_0_1_S64x32x1 : S64x32x9.Slices ![0, 0, 1] S64x32x1
  slices_S64x200_o0_1_S64x192 : S64x200.Slices ![0, 1] S64x192
  slices_S64x32x9_o0_0_2_S64x32x1 : S64x32x9.Slices ![0, 0, 2] S64x32x1
  slices_S64x200_o0_2_S64x192 : S64x200.Slices ![0, 2] S64x192
  slices_S64x32x9_o0_0_3_S64x32x1 : S64x32x9.Slices ![0, 0, 3] S64x32x1
  slices_S64x200_o0_3_S64x192 : S64x200.Slices ![0, 3] S64x192
  slices_S64x32x9_o0_0_4_S64x32x1 : S64x32x9.Slices ![0, 0, 4] S64x32x1
  slices_S64x200_o0_4_S64x192 : S64x200.Slices ![0, 4] S64x192
  slices_S64x32x9_o0_0_5_S64x32x1 : S64x32x9.Slices ![0, 0, 5] S64x32x1
  slices_S64x200_o0_5_S64x192 : S64x200.Slices ![0, 5] S64x192
  slices_S64x32x9_o0_0_6_S64x32x1 : S64x32x9.Slices ![0, 0, 6] S64x32x1
  slices_S64x200_o0_6_S64x192 : S64x200.Slices ![0, 6] S64x192
  slices_S64x32x9_o0_0_7_S64x32x1 : S64x32x9.Slices ![0, 0, 7] S64x32x1
  slices_S64x200_o0_7_S64x192 : S64x200.Slices ![0, 7] S64x192
  slices_S64x32x9_o0_0_8_S64x32x1 : S64x32x9.Slices ![0, 0, 8] S64x32x1
  slices_S64x200_o0_8_S64x192 : S64x200.Slices ![0, 8] S64x192
  inb_S32_S32_0 : ∀ a, (![0] : Fin 1 → Nat) a + S32.size a ≤ S32.size a
  h_S32 : 0 < S32.numel
  shapeCasts_S32_S1x32x1 : S32.ShapeCasts S1x32x1
  broadcasts_S1x32x1_S64x32x192 : S1x32x1.Broadcasts S64x32x192
  shapeCasts_S64x32x192_S64x6144 : S64x32x192.ShapeCasts S64x6144
  inb_S6144x200_S6144x200_0_0 : ∀ a, (![0, 0] : Fin 2 → Nat) a + S6144x200.size a ≤ S6144x200.size a
  h_S6144x200 : 0 < S6144x200.numel
  inb_S200_S200_0 : ∀ a, (![0] : Fin 1 → Nat) a + S200.size a ≤ S200.size a
  h_S200 : 0 < S200.numel
  shapeCasts_S200_S1x200 : S200.ShapeCasts S1x200
  broadcasts_S1x200_S64x200 : S1x200.Broadcasts S64x200
  pads_S100000x200_S101376x200_013760_000 : S100000x200.Pads (![0, 0] : Fin 2 → Nat) ![1376, 0] ![0, 0] S101376x200
  h_S_ : 0 < S_.numel
  pads_S100000_S101376_013760 : S100000.Pads (![0] : Fin 1 → Nat) ![1376] ![0] S101376
  shapeCasts_S101376_S1x101376 : S101376.ShapeCasts S1x101376
  inb_S1024x200_S1024x200_0_0 : ∀ a, (![0, 0] : Fin 2 → Nat) a + S1024x200.size a ≤ S1024x200.size a
  h_S1024x200 : 0 < S1024x200.numel
  shapeCasts_S1024x200_S1024x200 : S1024x200.ShapeCasts S1024x200
  inb_S1536x200_S1536x200_0_0 : ∀ a, (![0, 0] : Fin 2 → Nat) a + S1536x200.size a ≤ S1536x200.size a
  h_S1536x200 : 0 < S1536x200.numel
  shapeCasts_S1536x200_S1536x200 : S1536x200.ShapeCasts S1536x200
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  inb_S1024x1536_S1024x1536_0_0 : ∀ a, (![0, 0] : Fin 2 → Nat) a + S1024x1536.size a ≤ S1024x1536.size a
  h_S1024x1536 : 0 < S1024x1536.numel
  slices_S1024x101376_S1024x100000_0_0 : S1024x101376.Slices ![0, 0] S1024x100000
  gather_S100000x200_S1024x1_S1024x200_1_0_n_n_0_1_1200_wf : GatherDims.WF S100000x200 S1024x1 S1024x200 [1] [0] [] [0] [] 1 ![1, 200]
  gather_S500x200_S1024x1_S1024x200_1_0_n_n_0_1_1200_wf : GatherDims.WF S500x200 S1024x1 S1024x200 [1] [0] [] [0] [] 1 ![1, 200]
  dot_S64x200_S200x288_S64x288_1_0_0_1_n_n_wf : DotDims.WF S64x200 S200x288 S64x288 [1] [0] [0] [1] [] []
  dot_S64x6144_S6144x200_S64x200_1_0_0_1_n_n_wf : DotDims.WF S64x6144 S6144x200 S64x200 [1] [0] [0] [1] [] []
  dot_S1024x200_S1536x200_S1024x1536_1_1_0_0_n_n_wf : DotDims.WF S1024x200 S1536x200 S1024x1536 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x200.size a ≤ S1024x200.size a
  hwx0_0 : ∀ i : grid0.Coords, EltTy.bits .f32 = 32 ∨ (Rect.block (s := S1024x200) S64x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x200.size a ≤ S1024x200.size a
  hwx0_1 : ∀ i : grid0.Coords, EltTy.bits .f32 = 32 ∨ (Rect.block (s := S1024x200) S64x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x288.size a ≤ S200x288.size a
  hwx0_2 : ∀ i : grid0.Coords, EltTy.bits .f32 = 32 ∨ (Rect.block (s := S200x288) S200x288.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S288.size a ≤ S288.size a
  hwx0_3 : ∀ i : grid0.Coords, EltTy.bits .f32 = 32 ∨ (Rect.block (s := S288) S288.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32.size a ≤ S32.size a
  hwx0_9 : ∀ i : grid0.Coords, EltTy.bits .f32 = 32 ∨ (Rect.block (s := S32) S32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32.size a ≤ S32.size a
  hwx0_10 : ∀ i : grid0.Coords, EltTy.bits .f32 = 32 ∨ (Rect.block (s := S32) S32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32.size a ≤ S32.size a
  hwx0_11 : ∀ i : grid0.Coords, EltTy.bits .f32 = 32 ∨ (Rect.block (s := S32) S32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S200.size a ≤ S200.size a
  hwx0_12 : ∀ i : grid0.Coords, EltTy.bits .f32 = 32 ∨ (Rect.block (s := S200) S200.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S200.size a ≤ S200.size a
  hwx0_13 : ∀ i : grid0.Coords, EltTy.bits .f32 = 32 ∨ (Rect.block (s := S200) S200.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S200.size a ≤ S200.size a
  hwx0_14 : ∀ i : grid0.Coords, EltTy.bits .f32 = 32 ∨ (Rect.block (s := S200) S200.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S200.size a ≤ S200.size a
  hwx0_15 : ∀ i : grid0.Coords, EltTy.bits .f32 = 32 ∨ (Rect.block (s := S200) S200.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S6144x200.size a ≤ S6144x200.size a
  hwx0_16 : ∀ i : grid0.Coords, EltTy.bits .f32 = 32 ∨ (Rect.block (s := S6144x200) S6144x200.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S200.size a ≤ S200.size a
  hwx0_17 : ∀ i : grid0.Coords, EltTy.bits .f32 = 32 ∨ (Rect.block (s := S200) S200.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S64x200.size a ≤ S1024x200.size a
  hwx0_18 : ∀ i : grid0.Coords, EltTy.bits .f32 = 32 ∨ (Rect.block (s := S1024x200) S64x200.size (cc0_transform_18 i) (hinb0_18 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x200.size a ≤ S1024x200.size a
  hwx1_0 : ∀ i : grid1.Coords, EltTy.bits .f32 = 32 ∨ (Rect.block (s := S1024x200) S1024x200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1536x200.size a ≤ S101376x200.size a
  hwx1_1 : ∀ i : grid1.Coords, EltTy.bits .f32 = 32 ∨ (Rect.block (s := S101376x200) S1536x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1536.size a ≤ S1x101376.size a
  hwx1_2 : ∀ i : grid1.Coords, EltTy.bits .f32 = 32 ∨ (Rect.block (s := S1x101376) S1x1536.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1536.size a ≤ S1024x101376.size a
  hwx1_3 : ∀ i : grid1.Coords, EltTy.bits .f32 = 32 ∨ (Rect.block (s := S1024x101376) S1024x1536.size (cc1_transform_3 i) (hinb1_3 i)).WholeWords (EltTy.packing .f32)

variable [Facts₀]

def gather_S100000x200_S1024x1_S1024x200_1_0_n_n_0_1_1200 : GatherDims S100000x200 S1024x1 S1024x200 where
  offsetDims := [1]
  collapsedSliceDims := [0]
  operandBatchingDims := []
  startIndicesBatchingDims := []
  startIndexMap := [0]
  indexVectorDim := 1
  sliceSizes := ![1, 200]
  wf := gather_S100000x200_S1024x1_S1024x200_1_0_n_n_0_1_1200_wf
def gather_S500x200_S1024x1_S1024x200_1_0_n_n_0_1_1200 : GatherDims S500x200 S1024x1 S1024x200 where
  offsetDims := [1]
  collapsedSliceDims := [0]
  operandBatchingDims := []
  startIndicesBatchingDims := []
  startIndexMap := [0]
  indexVectorDim := 1
  sliceSizes := ![1, 200]
  wf := gather_S500x200_S1024x1_S1024x200_1_0_n_n_0_1_1200_wf
def dot_S64x200_S200x288_S64x288_1_0_0_1_n_n : DotDims S64x200 S200x288 S64x288 where
  lhsContracting := [1]
  rhsContracting := [0]
  lhsNonContracting := [0]
  rhsNonContracting := [1]
  lhsBatch := []
  rhsBatch := []
  wf := dot_S64x200_S200x288_S64x288_1_0_0_1_n_n_wf
def dot_S64x6144_S6144x200_S64x200_1_0_0_1_n_n : DotDims S64x6144 S6144x200 S64x200 where
  lhsContracting := [1]
  rhsContracting := [0]
  lhsNonContracting := [0]
  rhsNonContracting := [1]
  lhsBatch := []
  rhsBatch := []
  wf := dot_S64x6144_S6144x200_S64x200_1_0_0_1_n_n_wf
def dot_S1024x200_S1536x200_S1024x1536_1_1_0_0_n_n : DotDims S1024x200 S1536x200 S1024x1536 where
  lhsContracting := [1]
  rhsContracting := [1]
  lhsNonContracting := [0]
  rhsNonContracting := [0]
  lhsBatch := []
  rhsBatch := []
  wf := dot_S1024x200_S1536x200_S1024x1536_1_1_0_0_n_n_wf

abbrev win0_0 : Pipeline.Window sig grid0 :=
  Pipeline.Window.ofSpec (Memref.whole main_v6) S64x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S64x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S200x288.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S288.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S200.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg17) S200.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg18) S200.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg19) S200.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg4) S6144x200.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg5) S200.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v14) S64x200.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_v14) S1024x200.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1536x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x1536.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1024x1536.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024 : Shape := ⟨1, ![1024]⟩
abbrev S100000x200 : Shape := ⟨2, ![100000, 200]⟩
abbrev S500x200 : Shape := ⟨2, ![500, 200]⟩
abbrev S6144x200 : Shape := ⟨2, ![6144, 200]⟩
abbrev S200 : Shape := ⟨1, ![200]⟩
abbrev S200x288 : Shape := ⟨2, ![200, 288]⟩
abbrev S288 : Shape := ⟨1, ![288]⟩
abbrev S1 : Shape := ⟨1, ![1]⟩
abbrev S32 : Shape := ⟨1, ![32]⟩
abbrev S100000 : Shape := ⟨1, ![100000]⟩
abbrev S_ : Shape := ⟨0, ![]⟩
abbrev S1024x1 : Shape := ⟨2, ![1024, 1]⟩
abbrev S1024x200 : Shape := ⟨2, ![1024, 200]⟩
abbrev S1x1 : Shape := ⟨2, ![1, 1]⟩
abbrev S1024x288 : Shape := ⟨2, ![1024, 288]⟩
abbrev S1x288 : Shape := ⟨2, ![1, 288]⟩
abbrev S1024x32x9 : Shape := ⟨3, ![1024, 32, 9]⟩
abbrev S192 : Shape := ⟨1, ![192]⟩
abbrev S192x1 : Shape := ⟨2, ![192, 1]⟩
abbrev S9 : Shape := ⟨1, ![9]⟩
abbrev S1x9 : Shape := ⟨2, ![1, 9]⟩
abbrev S192x9 : Shape := ⟨2, ![192, 9]⟩
abbrev S192x9x1 : Shape := ⟨3, ![192, 9, 1]⟩
abbrev S1024x192x9 : Shape := ⟨3, ![1024, 192, 9]⟩
abbrev S1024x32x192 : Shape := ⟨3, ![1024, 32, 192]⟩
abbrev S32x1 : Shape := ⟨2, ![32, 1]⟩
abbrev S1x32x1 : Shape := ⟨3, ![1, 32, 1]⟩
abbrev S1024x6144 : Shape := ⟨2, ![1024, 6144]⟩
abbrev S1x200 : Shape := ⟨2, ![1, 200]⟩
abbrev S200x100000 : Shape := ⟨2, ![200, 100000]⟩
abbrev S1024x100000 : Shape := ⟨2, ![1024, 100000]⟩
abbrev S1x100000 : Shape := ⟨2, ![1, 100000]⟩

abbrev nBuf : Space → Nat
  | .hbm => 127
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S100000x200, .f32⟩
  | .hbm, ⟨3, _⟩ => ⟨S500x200, .f32⟩
  | .hbm, ⟨4, _⟩ => ⟨S6144x200, .f32⟩
  | .hbm, ⟨5, _⟩ => ⟨S200, .f32⟩
  | .hbm, ⟨6, _⟩ => ⟨S200x288, .f32⟩
  | .hbm, ⟨7, _⟩ => ⟨S288, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S200, .f32⟩
  | .hbm, ⟨17, _⟩ => ⟨S200, .f32⟩
  | .hbm, ⟨18, _⟩ => ⟨S200, .f32⟩
  | .hbm, ⟨19, _⟩ => ⟨S200, .f32⟩
  | .hbm, ⟨20, _⟩ => ⟨S100000, .f32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x200, .f32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1024x200, .f32⟩
  | .hbm, ⟨39, _⟩ => ⟨S1x1, .f32⟩
  | .hbm, ⟨40, _⟩ => ⟨S1024x200, .f32⟩
  | .hbm, ⟨41, _⟩ => ⟨S1024x200, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S1, .f32⟩
  | .hbm, ⟨46, _⟩ => ⟨S1, .f32⟩
  | .hbm, ⟨47, _⟩ => ⟨S1x1, .f32⟩
  | .hbm, ⟨48, _⟩ => ⟨S1024x200, .f32⟩
  | .hbm, ⟨49, _⟩ => ⟨S1024x200, .f32⟩
  | .hbm, ⟨50, _⟩ => ⟨S1x1, .f32⟩
  | .hbm, ⟨51, _⟩ => ⟨S1024x200, .f32⟩
  | .hbm, ⟨52, _⟩ => ⟨S1024x200, .f32⟩
  | .hbm, ⟨53, _⟩ => ⟨S1024x288, .f32⟩
  | .hbm, ⟨54, _⟩ => ⟨S1x288, .f32⟩
  | .hbm, ⟨55, _⟩ => ⟨S1024x288, .f32⟩
  | .hbm, ⟨56, _⟩ => ⟨S1024x288, .f32⟩
  | .hbm, ⟨57, _⟩ => ⟨S1024x32x9, .f32⟩
  | .hbm, ⟨58, _⟩ => ⟨S192, .i32⟩
  | .hbm, ⟨59, _⟩ => ⟨S192x1, .i32⟩
  | .hbm, ⟨60, _⟩ => ⟨S9, .i32⟩
  | .hbm, ⟨61, _⟩ => ⟨S1x9, .i32⟩
  | .hbm, ⟨62, _⟩ => ⟨S192x9, .i32⟩
  | .hbm, ⟨63, _⟩ => ⟨S192x9, .i32⟩
  | .hbm, ⟨64, _⟩ => ⟨S192x9, .i32⟩
  | .hbm, ⟨65, _⟩ => ⟨S_, .i32⟩
  | .hbm, ⟨66, _⟩ => ⟨S192x9, .i32⟩
  | .hbm, ⟨67, _⟩ => ⟨S192x9, .i1⟩
  | .hbm, ⟨68, _⟩ => ⟨S_, .i32⟩
  | .hbm, ⟨69, _⟩ => ⟨S192x9, .i32⟩
  | .hbm, ⟨70, _⟩ => ⟨S192x9, .i32⟩
  | .hbm, ⟨71, _⟩ => ⟨S192x9, .i32⟩
  | .hbm, ⟨72, _⟩ => ⟨S192x9x1, .i32⟩
  | .hbm, ⟨73, _⟩ => ⟨S1024x192x9, .f32⟩
  | .hbm, ⟨74, _⟩ => ⟨S1024x32x192, .f32⟩
  | .hbm, ⟨75, _⟩ => ⟨S32x1, .f32⟩
  | .hbm, ⟨76, _⟩ => ⟨S1x32x1, .f32⟩
  | .hbm, ⟨77, _⟩ => ⟨S1024x32x192, .f32⟩
  | .hbm, ⟨78, _⟩ => ⟨S1024x32x192, .f32⟩
  | .hbm, ⟨79, _⟩ => ⟨S_, .f32⟩
  | .hbm, ⟨80, _⟩ => ⟨S32, .f32⟩
  | .hbm, ⟨81, _⟩ => ⟨S32, .f32⟩
  | .hbm, ⟨82, _⟩ => ⟨S32, .f32⟩
  | .hbm, ⟨83, _⟩ => ⟨S32, .f32⟩
  | .hbm, ⟨84, _⟩ => ⟨S32x1, .f32⟩
  | .hbm, ⟨85, _⟩ => ⟨S1x32x1, .f32⟩
  | .hbm, ⟨86, _⟩ => ⟨S1024x32x192, .f32⟩
  | .hbm, ⟨87, _⟩ => ⟨S1024x32x192, .f32⟩
  | .hbm, ⟨88, _⟩ => ⟨S32x1, .f32⟩
  | .hbm, ⟨89, _⟩ => ⟨S1x32x1, .f32⟩
  | .hbm, ⟨90, _⟩ => ⟨S1024x32x192, .f32⟩
  | .hbm, ⟨91, _⟩ => ⟨S1024x32x192, .f32⟩
  | .hbm, ⟨92, _⟩ => ⟨S1024x6144, .f32⟩
  | .hbm, ⟨93, _⟩ => ⟨S1024x200, .f32⟩
  | .hbm, ⟨94, _⟩ => ⟨S1x200, .f32⟩
  | .hbm, ⟨95, _⟩ => ⟨S1024x200, .f32⟩
  | .hbm, ⟨96, _⟩ => ⟨S1024x200, .f32⟩
  | .hbm, ⟨97, _⟩ => ⟨S1x200, .f32⟩
  | .hbm, ⟨98, _⟩ => ⟨S1024x200, .f32⟩
  | .hbm, ⟨99, _⟩ => ⟨S1024x200, .f32⟩
  | .hbm, ⟨100, _⟩ => ⟨S_, .f32⟩
  | .hbm, ⟨101, _⟩ => ⟨S200, .f32⟩
  | .hbm, ⟨102, _⟩ => ⟨S200, .f32⟩
  | .hbm, ⟨103, _⟩ => ⟨S200, .f32⟩
  | .hbm, ⟨104, _⟩ => ⟨S200, .f32⟩
  | .hbm, ⟨105, _⟩ => ⟨S1x200, .f32⟩
  | .hbm, ⟨106, _⟩ => ⟨S1024x200, .f32⟩
  | .hbm, ⟨107, _⟩ => ⟨S1024x200, .f32⟩
  | .hbm, ⟨108, _⟩ => ⟨S1x200, .f32⟩
  | .hbm, ⟨109, _⟩ => ⟨S1024x200, .f32⟩
  | .hbm, ⟨110, _⟩ => ⟨S1024x200, .f32⟩
  | .hbm, ⟨111, _⟩ => ⟨S_, .f32⟩
  | .hbm, ⟨112, _⟩ => ⟨S1024x200, .f32⟩
  | .hbm, ⟨113, _⟩ => ⟨S1024x200, .f32⟩
  | .hbm, ⟨114, _⟩ => ⟨S200x100000, .f32⟩
  | .hbm, ⟨115, _⟩ => ⟨S1024x100000, .f32⟩
  | .hbm, ⟨116, _⟩ => ⟨S1x100000, .f32⟩
  | .hbm, ⟨117, _⟩ => ⟨S1024x100000, .f32⟩
  | .hbm, ⟨118, _⟩ => ⟨S1024x100000, .f32⟩
  | .hbm, ⟨119, _⟩ => ⟨S1024x100000, .f32⟩
  | .hbm, ⟨120, _⟩ => ⟨S1024x100000, .f32⟩
  | .hbm, ⟨121, _⟩ => ⟨S_, .f32⟩
  | .hbm, ⟨122, _⟩ => ⟨S1024x100000, .f32⟩
  | .hbm, ⟨123, _⟩ => ⟨S1024x100000, .f32⟩
  | .hbm, ⟨124, _⟩ => ⟨S_, .f32⟩
  | .hbm, ⟨125, _⟩ => ⟨S1024x100000, .f32⟩
  | .hbm, ⟨126, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_3 : Ref sig .tc := ⟨.hbm, 65, rfl⟩
abbrev main_v39 : Ref sig .tc := ⟨.hbm, 66, rfl⟩
abbrev main_v40 : Ref sig .tc := ⟨.hbm, 67, rfl⟩
abbrev main_c_4 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_5 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_6 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_call0_cst : Ref sig .tc := ⟨.hbm, 111, rfl⟩
abbrev main_call0_v0 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_7 : Ref sig .tc := ⟨.hbm, 121, rfl⟩
abbrev main_v89 : Ref sig .tc := ⟨.hbm, 122, rfl⟩
abbrev main_v90 : Ref sig .tc := ⟨.hbm, 123, rfl⟩
abbrev main_cst_8 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1_S1x1_1 : S1.BroadcastsInDim S1x1 (![1] : Fin 1 → Fin S1x1.rank)
  bcast_S1x1_S1024x200_0_1 : S1x1.BroadcastsInDim S1024x200 (![0, 1] : Fin 2 → Fin S1024x200.rank)
  bcast_S_S1 : S_.BroadcastsInDim S1 (![] : Fin 0 → Fin S1.rank)
  bcast_S288_S1x288_1 : S288.BroadcastsInDim S1x288 (![1] : Fin 1 → Fin S1x288.rank)
  bcast_S1x288_S1024x288_0_1 : S1x288.BroadcastsInDim S1024x288 (![0, 1] : Fin 2 → Fin S1024x288.rank)
  shapeCasts_S1024x288_S1024x32x9 : S1024x288.ShapeCasts S1024x32x9
  bcast_S192_S192x1_0 : S192.BroadcastsInDim S192x1 (![0] : Fin 1 → Fin S192x1.rank)
  bcast_S9_S1x9_1 : S9.BroadcastsInDim S1x9 (![1] : Fin 1 → Fin S1x9.rank)
  bcast_S192x1_S192x9_0_1 : S192x1.BroadcastsInDim S192x9 (![0, 1] : Fin 2 → Fin S192x9.rank)
  bcast_S1x9_S192x9_0_1 : S1x9.BroadcastsInDim S192x9 (![0, 1] : Fin 2 → Fin S192x9.rank)
  bcast_S_S192x9 : S_.BroadcastsInDim S192x9 (![] : Fin 0 → Fin S192x9.rank)
  bcast_S192x9_S192x9x1_0_1 : S192x9.BroadcastsInDim S192x9x1 (![0, 1] : Fin 2 → Fin S192x9x1.rank)
  bcast_S32_S32x1_0 : S32.BroadcastsInDim S32x1 (![0] : Fin 1 → Fin S32x1.rank)
  bcast_S32x1_S1x32x1_1_2 : S32x1.BroadcastsInDim S1x32x1 (![1, 2] : Fin 2 → Fin S1x32x1.rank)
  bcast_S1x32x1_S1024x32x192_0_1_2 : S1x32x1.BroadcastsInDim S1024x32x192 (![0, 1, 2] : Fin 3 → Fin S1024x32x192.rank)
  bcast_S_S32 : S_.BroadcastsInDim S32 (![] : Fin 0 → Fin S32.rank)
  shapeCasts_S1024x32x192_S1024x6144 : S1024x32x192.ShapeCasts S1024x6144
  bcast_S200_S1x200_1 : S200.BroadcastsInDim S1x200 (![1] : Fin 1 → Fin S1x200.rank)
  bcast_S1x200_S1024x200_0_1 : S1x200.BroadcastsInDim S1024x200 (![0, 1] : Fin 2 → Fin S1024x200.rank)
  bcast_S_S200 : S_.BroadcastsInDim S200 (![] : Fin 0 → Fin S200.rank)
  bcast_S_S1024x200 : S_.BroadcastsInDim S1024x200 (![] : Fin 0 → Fin S1024x200.rank)
  transposes_S100000x200_S200x100000_1_0 : S100000x200.Transposes [1, 0] S200x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  bcast_S_S1024x100000 : S_.BroadcastsInDim S1024x100000 (![] : Fin 0 → Fin S1024x100000.rank)
  gather_S100000x200_S1024x1_S1024x200_1_0_n_n_0_1_1200_wf : GatherDims.WF S100000x200 S1024x1 S1024x200 [1] [0] [] [0] [] 1 ![1, 200]
  gather_S500x200_S1024x1_S1024x200_1_0_n_n_0_1_1200_wf : GatherDims.WF S500x200 S1024x1 S1024x200 [1] [0] [] [0] [] 1 ![1, 200]
  dot_S1024x200_S200x288_S1024x288_1_0_0_1_n_n_wf : DotDims.WF S1024x200 S200x288 S1024x288 [1] [0] [0] [1] [] []
  gather_S1024x200_S192x9x1_S1024x192x9_0_1_n_n_1_2_10241_wf : GatherDims.WF S1024x200 S192x9x1 S1024x192x9 [0] [1] [] [1] [] 2 ![1024, 1]
  dot_S1024x32x9_S1024x192x9_S1024x32x192_2_2_1_1_0_0_wf : DotDims.WF S1024x32x9 S1024x192x9 S1024x32x192 [2] [2] [1] [1] [0] [0]
  dot_S1024x6144_S6144x200_S1024x200_1_0_0_1_n_n_wf : DotDims.WF S1024x6144 S6144x200 S1024x200 [1] [0] [0] [1] [] []
  dot_S1024x200_S200x100000_S1024x100000_1_0_0_1_n_n_wf : DotDims.WF S1024x200 S200x100000 S1024x100000 [1] [0] [0] [1] [] []

variable [Facts₀]

def gather_S100000x200_S1024x1_S1024x200_1_0_n_n_0_1_1200 : GatherDims S100000x200 S1024x1 S1024x200 where
  offsetDims := [1]
  collapsedSliceDims := [0]
  operandBatchingDims := []
  startIndicesBatchingDims := []
  startIndexMap := [0]
  indexVectorDim := 1
  sliceSizes := ![1, 200]
  wf := gather_S100000x200_S1024x1_S1024x200_1_0_n_n_0_1_1200_wf
def gather_S500x200_S1024x1_S1024x200_1_0_n_n_0_1_1200 : GatherDims S500x200 S1024x1 S1024x200 where
  offsetDims := [1]
  collapsedSliceDims := [0]
  operandBatchingDims := []
  startIndicesBatchingDims := []
  startIndexMap := [0]
  indexVectorDim := 1
  sliceSizes := ![1, 200]
  wf := gather_S500x200_S1024x1_S1024x200_1_0_n_n_0_1_1200_wf
def dot_S1024x200_S200x288_S1024x288_1_0_0_1_n_n : DotDims S1024x200 S200x288 S1024x288 where
  lhsContracting := [1]
  rhsContracting := [0]
  lhsNonContracting := [0]
  rhsNonContracting := [1]
  lhsBatch := []
  rhsBatch := []
  wf := dot_S1024x200_S200x288_S1024x288_1_0_0_1_n_n_wf
def gather_S1024x200_S192x9x1_S1024x192x9_0_1_n_n_1_2_10241 : GatherDims S1024x200 S192x9x1 S1024x192x9 where
  offsetDims := [0]
  collapsedSliceDims := [1]
  operandBatchingDims := []
  startIndicesBatchingDims := []
  startIndexMap := [1]
  indexVectorDim := 2
  sliceSizes := ![1024, 1]
  wf := gather_S1024x200_S192x9x1_S1024x192x9_0_1_n_n_1_2_10241_wf
def dot_S1024x32x9_S1024x192x9_S1024x32x192_2_2_1_1_0_0 : DotDims S1024x32x9 S1024x192x9 S1024x32x192 where
  lhsContracting := [2]
  rhsContracting := [2]
  lhsNonContracting := [1]
  rhsNonContracting := [1]
  lhsBatch := [0]
  rhsBatch := [0]
  wf := dot_S1024x32x9_S1024x192x9_S1024x32x192_2_2_1_1_0_0_wf
def dot_S1024x6144_S6144x200_S1024x200_1_0_0_1_n_n : DotDims S1024x6144 S6144x200 S1024x200 where
  lhsContracting := [1]
  rhsContracting := [0]
  lhsNonContracting := [0]
  rhsNonContracting := [1]
  lhsBatch := []
  rhsBatch := []
  wf := dot_S1024x6144_S6144x200_S1024x200_1_0_0_1_n_n_wf
def dot_S1024x200_S200x100000_S1024x100000_1_0_0_1_n_n : DotDims S1024x200 S200x100000 S1024x100000 where
  lhsContracting := [1]
  rhsContracting := [0]
  lhsNonContracting := [0]
  rhsNonContracting := [1]
  lhsBatch := []
  rhsBatch := []
  wf := dot_S1024x200_S200x100000_S1024x100000_1_0_0_1_n_n_wf

class Facts : Prop extends Facts₀ where

variable [Facts]
-- ==== Proof.KRun.lean ====
/-
  The idealized kernel program's run, with every buffer named. From any memory with zero counters every weakly fair
  execution of @main terminates without a fault, and in the final state every buffer the program does not scope holds
  what the fold of @main's segments leaves there (`Gen.W9`): the host stretches applied in order, each of the two kernels
  replacing its arrays by what its write-backs leave. The result buffer is among those buffers, and so is every
  argument. This is the library's launch theorem for a program of several kernels, over the generated segments.
-/
import proofs.«171688_j3453153706530_2_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every unscoped buffer ends at the segments' fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The result buffer is not scoped: the run names its final contents. -/
theorem result_mem : Proc.devRef .tc main_v19 ∈ Pipeline.ucRefs τ sig := mem_uc main_v19 (by decide)

/-- The run re-posted in the shape the claim asks for: the result buffer at the fold's contents, the arguments as launched. -/
theorem run_value : θ_run defs (onTc (τ := τ) (main (F := F))) ⟨m, fun _ => 0, ρ⟩ (fun r => ∀ c : Dev nD,
      r.2.mem ((c.tc : Thread nD τ).loc main_v19) = W9 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨h c _ result_mem,
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c),
      (h c _ (mem_uc main_arg13 (by decide))).trans (W9_main_arg13 m ρ c),
      (h c _ (mem_uc main_arg14 (by decide))).trans (W9_main_arg14 m ρ c),
      (h c _ (mem_uc main_arg15 (by decide))).trans (W9_main_arg15 m ρ c),
      (h c _ (mem_uc main_arg16 (by decide))).trans (W9_main_arg16 m ρ c),
      (h c _ (mem_uc main_arg17 (by decide))).trans (W9_main_arg17 m ρ c),
      (h c _ (mem_uc main_arg18 (by decide))).trans (W9_main_arg18 m ρ c),
      (h c _ (mem_uc main_arg19 (by decide))).trans (W9_main_arg19 m ρ c),
      (h c _ (mem_uc main_arg20 (by decide))).trans (W9_main_arg20 m ρ c)⟩)
    (run_all m ρ)

end Cert.KernelIdeal.KValue

end
-- ==== Proof.KBlocks0.lean ====
/-
  The first kernel's windows, block by block. The grid has 16 points; point `t` takes rows 64·t … 64·t + 63 of the two
  gathered embedding arrays and writes rows 64·t … 64·t + 63 of the hidden array; every parameter array is one block, the
  same at every point. Read at an index, a block of an input window is therefore the array at the same column and at
  row 64·t + p (the two row-blocked windows) or at the very same index (the parameters).
-/
import proofs.«171688_j3453153706530_2_alg».proof.Proof.Gen.KernelIdeal.Frame
import Idealize.ShloMosaic.Lib.ValueIdx
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

/-! ## The printed index maps over the 16 grid points -/

theorem ix0_0_0 : ∀ t : Fin cfg0.N, win0_0.index t (0 : Fin 2) = t.val :=
  (by decide +kernel : ∀ t : Fin grid0.N, win0_0.index t (0 : Fin 2) = t.val)
theorem ix0_0_1 : ∀ t : Fin cfg0.N, win0_0.index t (1 : Fin 2) = 0 :=
  (by decide +kernel : ∀ t : Fin grid0.N, win0_0.index t (1 : Fin 2) = 0)
theorem ix0_1_0 : ∀ t : Fin cfg0.N, win0_1.index t (0 : Fin 2) = t.val :=
  (by decide +kernel : ∀ t : Fin grid0.N, win0_1.index t (0 : Fin 2) = t.val)
theorem ix0_1_1 : ∀ t : Fin cfg0.N, win0_1.index t (1 : Fin 2) = 0 :=
  (by decide +kernel : ∀ t : Fin grid0.N, win0_1.index t (1 : Fin 2) = 0)
theorem ix0_2_0 : ∀ t : Fin cfg0.N, win0_2.index t (0 : Fin 2) = 0 :=
  (by decide +kernel : ∀ t : Fin grid0.N, win0_2.index t (0 : Fin 2) = 0)
theorem ix0_2_1 : ∀ t : Fin cfg0.N, win0_2.index t (1 : Fin 2) = 0 :=
  (by decide +kernel : ∀ t : Fin grid0.N, win0_2.index t (1 : Fin 2) = 0)
theorem ix0_3_0 : ∀ t : Fin cfg0.N, win0_3.index t (0 : Fin 1) = 0 :=
  (by decide +kernel : ∀ t : Fin grid0.N, win0_3.index t (0 : Fin 1) = 0)
theorem ix0_4_0 : ∀ t : Fin cfg0.N, win0_4.index t (0 : Fin 1) = 0 :=
  (by decide +kernel : ∀ t : Fin grid0.N, win0_4.index t (0 : Fin 1) = 0)
theorem ix0_5_0 : ∀ t : Fin cfg0.N, win0_5.index t (0 : Fin 1) = 0 :=
  (by decide +kernel : ∀ t : Fin grid0.N, win0_5.index t (0 : Fin 1) = 0)
theorem ix0_6_0 : ∀ t : Fin cfg0.N, win0_6.index t (0 : Fin 1) = 0 :=
  (by decide +kernel : ∀ t : Fin grid0.N, win0_6.index t (0 : Fin 1) = 0)
theorem ix0_7_0 : ∀ t : Fin cfg0.N, win0_7.index t (0 : Fin 1) = 0 :=
  (by decide +kernel : ∀ t : Fin grid0.N, win0_7.index t (0 : Fin 1) = 0)
theorem ix0_8_0 : ∀ t : Fin cfg0.N, win0_8.index t (0 : Fin 1) = 0 :=
  (by decide +kernel : ∀ t : Fin grid0.N, win0_8.index t (0 : Fin 1) = 0)
theorem ix0_9_0 : ∀ t : Fin cfg0.N, win0_9.index t (0 : Fin 1) = 0 :=
  (by decide +kernel : ∀ t : Fin grid0.N, win0_9.index t (0 : Fin 1) = 0)
theorem ix0_10_0 : ∀ t : Fin cfg0.N, win0_10.index t (0 : Fin 1) = 0 :=
  (by decide +kernel : ∀ t : Fin grid0.N, win0_10.index t (0 : Fin 1) = 0)
theorem ix0_11_0 : ∀ t : Fin cfg0.N, win0_11.index t (0 : Fin 1) = 0 :=
  (by decide +kernel : ∀ t : Fin grid0.N, win0_11.index t (0 : Fin 1) = 0)
theorem ix0_12_0 : ∀ t : Fin cfg0.N, win0_12.index t (0 : Fin 1) = 0 :=
  (by decide +kernel : ∀ t : Fin grid0.N, win0_12.index t (0 : Fin 1) = 0)
theorem ix0_13_0 : ∀ t : Fin cfg0.N, win0_13.index t (0 : Fin 1) = 0 :=
  (by decide +kernel : ∀ t : Fin grid0.N, win0_13.index t (0 : Fin 1) = 0)
theorem ix0_14_0 : ∀ t : Fin cfg0.N, win0_14.index t (0 : Fin 1) = 0 :=
  (by decide +kernel : ∀ t : Fin grid0.N, win0_14.index t (0 : Fin 1) = 0)
theorem ix0_15_0 : ∀ t : Fin cfg0.N, win0_15.index t (0 : Fin 1) = 0 :=
  (by decide +kernel : ∀ t : Fin grid0.N, win0_15.index t (0 : Fin 1) = 0)
theorem ix0_16_0 : ∀ t : Fin cfg0.N, win0_16.index t (0 : Fin 2) = 0 :=
  (by decide +kernel : ∀ t : Fin grid0.N, win0_16.index t (0 : Fin 2) = 0)
theorem ix0_16_1 : ∀ t : Fin cfg0.N, win0_16.index t (1 : Fin 2) = 0 :=
  (by decide +kernel : ∀ t : Fin grid0.N, win0_16.index t (1 : Fin 2) = 0)
theorem ix0_17_0 : ∀ t : Fin cfg0.N, win0_17.index t (0 : Fin 1) = 0 :=
  (by decide +kernel : ∀ t : Fin grid0.N, win0_17.index t (0 : Fin 1) = 0)
theorem ix0_18_0 : ∀ t : Fin cfg0.N, win0_18.index t (0 : Fin 2) = t.val :=
  (by decide +kernel : ∀ t : Fin grid0.N, win0_18.index t (0 : Fin 2) = t.val)
theorem ix0_18_1 : ∀ t : Fin cfg0.N, win0_18.index t (1 : Fin 2) = 0 :=
  (by decide +kernel : ∀ t : Fin grid0.N, win0_18.index t (1 : Fin 2) = 0)
theorem lt0 : ∀ t : Fin cfg0.N, t.val < 16 :=
  (by decide +kernel : ∀ t : Fin grid0.N, t.val < 16)
/-- Every row block is some point's. -/
theorem onto0 : ∀ q : Fin 16, ∃ t : Fin cfg0.N, t.val = q.val :=
  (by decide +kernel : ∀ q : Fin 16, ∃ t : Fin grid0.N, t.val = q.val)

/-! ## An input block read at an index -/

section Reads

variable {F : FTy → Type} [FloatOps F]
variable (V : (c : Dev nD) → (b : Ref sig .tc) → Buf (Elt F) ((c : Thread nD τ).loc b))

/-- Row `p` of point `t`'s block of window 0 is row 64·t + p of its array. -/
theorem read0_0 (c : Dev nD) (t : Fin cfg0.N) (p : Fin 64) (d : Fin 200) (i : S1024x200.Idx)
    (h0 : (i 0).val = 64 * t.val + p.val) (h1 : (i 1).val = d.val) :
    iblk0 V c 0 t (ix2 p d) = V c main_v6 i := by
  show V c main_v6 (((cfg0.win 0).blk t).view.emb (ix2 p d)) = _
  refine congrArg (V c main_v6) (funext fun a => Fin.ext ?_)
  match a with
  | ⟨0, _⟩ =>
    show win0_0.index t (0 : Fin 2) * 64 + 1 * p.val = (i 0).val
    rw [ix0_0_0 t, h0]; omega
  | ⟨1, _⟩ =>
    show win0_0.index t (1 : Fin 2) * 200 + 1 * d.val = (i 1).val
    rw [ix0_0_1 t, h1]; omega
/-- Row `p` of point `t`'s block of window 1 is row 64·t + p of its array. -/
theorem read0_1 (c : Dev nD) (t : Fin cfg0.N) (p : Fin 64) (d : Fin 200) (i : S1024x200.Idx)
    (h0 : (i 0).val = 64 * t.val + p.val) (h1 : (i 1).val = d.val) :
    iblk0 V c 1 t (ix2 p d) = V c main_v13 i := by
  show V c main_v13 (((cfg0.win 1).blk t).view.emb (ix2 p d)) = _
  refine congrArg (V c main_v13) (funext fun a => Fin.ext ?_)
  match a with
  | ⟨0, _⟩ =>
    show win0_1.index t (0 : Fin 2) * 64 + 1 * p.val = (i 0).val
    rw [ix0_1_0 t, h0]; omega
  | ⟨1, _⟩ =>
    show win0_1.index t (1 : Fin 2) * 200 + 1 * d.val = (i 1).val
    rw [ix0_1_1 t, h1]; omega
theorem read0_2 (c : Dev nD) (t : Fin cfg0.N) (q : Fin 200) (d : Fin 288) :
    iblk0 V c 2 t (ix2 q d) = V c main_arg6 (ix2 q d) := by
  show V c main_arg6 (((cfg0.win 2).blk t).view.emb (ix2 q d)) = _
  refine congrArg (V c main_arg6) (funext fun a => Fin.ext ?_)
  match a with
  | ⟨0, _⟩ =>
    show win0_2.index t (0 : Fin 2) * 200 + 1 * q.val = q.val
    rw [ix0_2_0 t]; omega
  | ⟨1, _⟩ =>
    show win0_2.index t (1 : Fin 2) * 288 + 1 * d.val = d.val
    rw [ix0_2_1 t]; omega
theorem read0_3 (c : Dev nD) (t : Fin cfg0.N) (q : Fin 288) :
    iblk0 V c 3 t (ix1 q) = V c main_arg7 (ix1 q) := by
  show V c main_arg7 (((cfg0.win 3).blk t).view.emb (ix1 q)) = _
  refine congrArg (V c main_arg7) (funext fun a => Fin.ext ?_)
  match a with
  | ⟨0, _⟩ =>
    show win0_3.index t (0 : Fin 1) * 288 + 1 * q.val = q.val
    rw [ix0_3_0 t]; omega
theorem read0_4 (c : Dev nD) (t : Fin cfg0.N) (q : Fin 1) :
    iblk0 V c 4 t (ix1 q) = V c main_arg8 (ix1 q) := by
  show V c main_arg8 (((cfg0.win 4).blk t).view.emb (ix1 q)) = _
  refine congrArg (V c main_arg8) (funext fun a => Fin.ext ?_)
  match a with
  | ⟨0, _⟩ =>
    show win0_4.index t (0 : Fin 1) * 1 + 1 * q.val = q.val
    rw [ix0_4_0 t]; omega
theorem read0_5 (c : Dev nD) (t : Fin cfg0.N) (q : Fin 1) :
    iblk0 V c 5 t (ix1 q) = V c main_arg9 (ix1 q) := by
  show V c main_arg9 (((cfg0.win 5).blk t).view.emb (ix1 q)) = _
  refine congrArg (V c main_arg9) (funext fun a => Fin.ext ?_)
  match a with
  | ⟨0, _⟩ =>
    show win0_5.index t (0 : Fin 1) * 1 + 1 * q.val = q.val
    rw [ix0_5_0 t]; omega
theorem read0_6 (c : Dev nD) (t : Fin cfg0.N) (q : Fin 1) :
    iblk0 V c 6 t (ix1 q) = V c main_arg10 (ix1 q) := by
  show V c main_arg10 (((cfg0.win 6).blk t).view.emb (ix1 q)) = _
  refine congrArg (V c main_arg10) (funext fun a => Fin.ext ?_)
  match a with
  | ⟨0, _⟩ =>
    show win0_6.index t (0 : Fin 1) * 1 + 1 * q.val = q.val
    rw [ix0_6_0 t]; omega
theorem read0_7 (c : Dev nD) (t : Fin cfg0.N) (q : Fin 1) :
    iblk0 V c 7 t (ix1 q) = V c main_arg11 (ix1 q) := by
  show V c main_arg11 (((cfg0.win 7).blk t).view.emb (ix1 q)) = _
  refine congrArg (V c main_arg11) (funext fun a => Fin.ext ?_)
  match a with
  | ⟨0, _⟩ =>
    show win0_7.index t (0 : Fin 1) * 1 + 1 * q.val = q.val
    rw [ix0_7_0 t]; omega
theorem read0_8 (c : Dev nD) (t : Fin cfg0.N) (q : Fin 32) :
    iblk0 V c 8 t (ix1 q) = V c main_arg12 (ix1 q) := by
  show V c main_arg12 (((cfg0.win 8).blk t).view.emb (ix1 q)) = _
  refine congrArg (V c main_arg12) (funext fun a => Fin.ext ?_)
  match a with
  | ⟨0, _⟩ =>
    show win0_8.index t (0 : Fin 1) * 32 + 1 * q.val = q.val
    rw [ix0_8_0 t]; omega
theorem read0_9 (c : Dev nD) (t : Fin cfg0.N) (q : Fin 32) :
    iblk0 V c 9 t (ix1 q) = V c main_arg13 (ix1 q) := by
  show V c main_arg13 (((cfg0.win 9).blk t).view.emb (ix1 q)) = _
  refine congrArg (V c main_arg13) (funext fun a => Fin.ext ?_)
  match a with
  | ⟨0, _⟩ =>
    show win0_9.index t (0 : Fin 1) * 32 + 1 * q.val = q.val
    rw [ix0_9_0 t]; omega
theorem read0_10 (c : Dev nD) (t : Fin cfg0.N) (q : Fin 32) :
    iblk0 V c 10 t (ix1 q) = V c main_arg14 (ix1 q) := by
  show V c main_arg14 (((cfg0.win 10).blk t).view.emb (ix1 q)) = _
  refine congrArg (V c main_arg14) (funext fun a => Fin.ext ?_)
  match a with
  | ⟨0, _⟩ =>
    show win0_10.index t (0 : Fin 1) * 32 + 1 * q.val = q.val
    rw [ix0_10_0 t]; omega
theorem read0_11 (c : Dev nD) (t : Fin cfg0.N) (q : Fin 32) :
    iblk0 V c 11 t (ix1 q) = V c main_arg15 (ix1 q) := by
  show V c main_arg15 (((cfg0.win 11).blk t).view.emb (ix1 q)) = _
  refine congrArg (V c main_arg15) (funext fun a => Fin.ext ?_)
  match a with
  | ⟨0, _⟩ =>
    show win0_11.index t (0 : Fin 1) * 32 + 1 * q.val = q.val
    rw [ix0_11_0 t]; omega
theorem read0_12 (c : Dev nD) (t : Fin cfg0.N) (q : Fin 200) :
    iblk0 V c 12 t (ix1 q) = V c main_arg16 (ix1 q) := by
  show V c main_arg16 (((cfg0.win 12).blk t).view.emb (ix1 q)) = _
  refine congrArg (V c main_arg16) (funext fun a => Fin.ext ?_)
  match a with
  | ⟨0, _⟩ =>
    show win0_12.index t (0 : Fin 1) * 200 + 1 * q.val = q.val
    rw [ix0_12_0 t]; omega
theorem read0_13 (c : Dev nD) (t : Fin cfg0.N) (q : Fin 200) :
    iblk0 V c 13 t (ix1 q) = V c main_arg17 (ix1 q) := by
  show V c main_arg17 (((cfg0.win 13).blk t).view.emb (ix1 q)) = _
  refine congrArg (V c main_arg17) (funext fun a => Fin.ext ?_)
  match a with
  | ⟨0, _⟩ =>
    show win0_13.index t (0 : Fin 1) * 200 + 1 * q.val = q.val
    rw [ix0_13_0 t]; omega
theorem read0_14 (c : Dev nD) (t : Fin cfg0.N) (q : Fin 200) :
    iblk0 V c 14 t (ix1 q) = V c main_arg18 (ix1 q) := by
  show V c main_arg18 (((cfg0.win 14).blk t).view.emb (ix1 q)) = _
  refine congrArg (V c main_arg18) (funext fun a => Fin.ext ?_)
  match a with
  | ⟨0, _⟩ =>
    show win0_14.index t (0 : Fin 1) * 200 + 1 * q.val = q.val
    rw [ix0_14_0 t]; omega
theorem read0_15 (c : Dev nD) (t : Fin cfg0.N) (q : Fin 200) :
    iblk0 V c 15 t (ix1 q) = V c main_arg19 (ix1 q) := by
  show V c main_arg19 (((cfg0.win 15).blk t).view.emb (ix1 q)) = _
  refine congrArg (V c main_arg19) (funext fun a => Fin.ext ?_)
  match a with
  | ⟨0, _⟩ =>
    show win0_15.index t (0 : Fin 1) * 200 + 1 * q.val = q.val
    rw [ix0_15_0 t]; omega
theorem read0_16 (c : Dev nD) (t : Fin cfg0.N) (q : Fin 6144) (d : Fin 200) :
    iblk0 V c 16 t (ix2 q d) = V c main_arg4 (ix2 q d) := by
  show V c main_arg4 (((cfg0.win 16).blk t).view.emb (ix2 q d)) = _
  refine congrArg (V c main_arg4) (funext fun a => Fin.ext ?_)
  match a with
  | ⟨0, _⟩ =>
    show win0_16.index t (0 : Fin 2) * 6144 + 1 * q.val = q.val
    rw [ix0_16_0 t]; omega
  | ⟨1, _⟩ =>
    show win0_16.index t (1 : Fin 2) * 200 + 1 * d.val = d.val
    rw [ix0_16_1 t]; omega
theorem read0_17 (c : Dev nD) (t : Fin cfg0.N) (q : Fin 200) :
    iblk0 V c 17 t (ix1 q) = V c main_arg5 (ix1 q) := by
  show V c main_arg5 (((cfg0.win 17).blk t).view.emb (ix1 q)) = _
  refine congrArg (V c main_arg5) (funext fun a => Fin.ext ?_)
  match a with
  | ⟨0, _⟩ =>
    show win0_17.index t (0 : Fin 1) * 200 + 1 * q.val = q.val
    rw [ix0_17_0 t]; omega

end Reads

end Cert.KernelIdeal.KValue

end
-- ==== Proof.Spec.lean ====
/-
  The function both programs compute, one batch row at a time, on the extended reals.

  A batch row carries an entity embedding `e` and a relation embedding `r`, 200 numbers each. The entity row is
  normalised by one affine map (`normRow`); the relation row is sent through a dense layer to a row of 32·9 numbers, read
  as 32 filters of 9 taps (`filtRow`); each filter is slid along the normalised entity row, 192 windows of 9 consecutive
  positions (`convRow`); every channel of the 32 × 192 feature map gets its own affine map (`chanNorm`); the map is
  flattened channel-major into 6144 numbers and sent through a second dense layer to 200 numbers (`denseRow`), which are
  normalised feature by feature and clamped below at zero (`featNorm`). The score of the row against an entity is the
  logistic function of the inner product of the resulting 200 numbers with that entity's embedding, plus the entity's
  bias (`score`). The affine maps' multipliers are parameters here: the two programs spell them differently.
-/
import Idealize.ShloMosaic.PureOps.Ideal
import Idealize.ShloMosaic.Lib.ValueIdx

noncomputable section

open scoped BigOperators

namespace Cert.HyperConv

open Idealize.ShloMosaic

/-- Tap `w` of filter `o` sits at position 9·o + w of the flat filter row. -/
def tapIx (o : Fin 32) (w : Fin 9) : Fin 288 := ⟨9 * o.val + w.val, by omega⟩

/-- Window `l` meets tap `w` at position l + w of the entity row. -/
def winIx (l : Fin 192) (w : Fin 9) : Fin 200 := ⟨l.val + w.val, by omega⟩

/-- The channel of entry `q` of the flattened feature map. -/
def chanIx (q : Fin 6144) : Fin 32 := ⟨q.val / 192, by omega⟩

/-- The window position of entry `q` of the flattened feature map. -/
def posIx (q : Fin 6144) : Fin 192 := ⟨q.val % 192, Nat.mod_lt _ (by norm_num)⟩

/-- The entity row after its affine map: subtract `m0`, multiply by `s0`, add `b0`. -/
def normRow (e : Fin 200 → EReal) (m0 s0 b0 : EReal) : Fin 200 → EReal :=
  fun j => (e j - m0) * s0 + b0

/-- The filter row: the relation row times the weights `W1`, plus the bias row `c1`. -/
def filtRow (r : Fin 200 → EReal) (W1 : Fin 200 → Fin 288 → EReal) (c1 : Fin 288 → EReal) : Fin 288 → EReal :=
  fun q => (∑ d : Fin 200, r d * W1 d q) + c1 q

/-- Channel `o`, window `l` of the feature map: the 9 taps of filter `o` against positions l … l + 8 of the row `x`. -/
def convRow (k : Fin 288 → EReal) (x : Fin 200 → EReal) : Fin 32 → Fin 192 → EReal :=
  fun o l => ∑ w : Fin 9, k (tapIx o w) * x (winIx l w)

/-- The feature map after each channel's affine map. -/
def chanNorm (y : Fin 32 → Fin 192 → EReal) (m1 s1 b1 : Fin 32 → EReal) : Fin 32 → Fin 192 → EReal :=
  fun o l => (y o l - m1 o) * s1 o + b1 o

/-- The flattened feature map times the weights `Wfc`, plus the bias row `cfc`. -/
def denseRow (y : Fin 32 → Fin 192 → EReal) (Wfc : Fin 6144 → Fin 200 → EReal) (cfc : Fin 200 → EReal) : Fin 200 → EReal :=
  fun j => (∑ q : Fin 6144, y (chanIx q) (posIx q) * Wfc q j) + cfc j

/-- Each feature's affine map, then the clamp from below at the zero word. -/
def featNorm (h : Fin 200 → EReal) (m2 s2 b2 : Fin 200 → EReal) : Fin 200 → EReal :=
  fun j => max ((h j - m2 j) * s2 j + b2 j) (Ideal.ofBits .f32 0x00000000#32)

/-- The hidden row of a batch row: all the stages in order. -/
def hiddenRow (e r : Fin 200 → EReal) (W1 : Fin 200 → Fin 288 → EReal) (c1 : Fin 288 → EReal) (m0 s0 b0 : EReal)
    (m1 s1 b1 : Fin 32 → EReal) (Wfc : Fin 6144 → Fin 200 → EReal) (cfc : Fin 200 → EReal) (m2 s2 b2 : Fin 200 → EReal) :
    Fin 200 → EReal :=
  featNorm (denseRow (chanNorm (convRow (filtRow r W1 c1) (normRow e m0 s0 b0)) m1 s1 b1) Wfc cfc) m2 s2 b2

/-- The score of a hidden row against one entity: the logistic function of their inner product plus the entity's bias. -/
def score (h erow : Fin 200 → EReal) (bias : EReal) : EReal :=
  Ideal.logistic ((∑ d : Fin 200, h d * erow d) + bias)

end Cert.HyperConv

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.HyperBodyPay.lean ====
/-
  The first kernel's body, payload by payload, read at one entry on the extended reals.

  Each payload of the body is a composition of pointwise operations (read through at an index by definition), layout
  operations (a slice, a reshape or a broadcast reads its operand at one index: the lemmas of the first section say
  which) and two plain matrix products (entry (p, c) is a sum over the shared extent). The sections below read every
  payload at an index over variables for its vector arguments; `conv_apply` then collects the nine taps the body adds one
  after another into the window sum of the specification.
-/
import proofs.«171688_j3453153706530_2_alg».proof.Proof.Gen.KernelIdeal.Skeleton
import proofs.«171688_j3453153706530_2_alg».proof.Proof.Spec
import proofs.«171688_j3453153706530_2_alg».proof.Proof.LibMatRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HyperBody

open Idealize.ShloMosaic Idealize.ShloMosaic.ValueIdx Cert.KernelIdeal Cert.HyperConv

variable {α : Type}

/-! ## Layout operations of the body read at an index -/

/-- A [1,1] array broadcast to [a,b] reads its one entry everywhere. -/
theorem bcast11_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) fun ax =>
    match ax with
    | ⟨0, _⟩ => rfl
    | ⟨1, _⟩ => rfl

/-- One tap column [64,32,1] broadcast along the windows reads, at (p, o, l), the column at (p, o). -/
theorem bcastTap_apply (v : S64x32x1.Idx → α) (h : S64x32x1.Broadcasts S64x32x192) (p : Fin 64) (o : Fin 32) (l : Fin 192) :
    broadcastTo S64x32x192 v h (ix3 p o l) = v (ix3 p o (0 : Fin 1)) :=
  broadcastTo_apply v h (ix3 p o l) (ix3 p o (0 : Fin 1)) fun ax =>
    match ax with
    | ⟨0, _⟩ => rfl
    | ⟨1, _⟩ => rfl
    | ⟨2, _⟩ => rfl

/-- One shifted row [64,1,192] broadcast along the channels reads, at (p, o, l), the row at (p, l). -/
theorem bcastWin_apply (v : S64x1x192.Idx → α) (h : S64x1x192.Broadcasts S64x32x192) (p : Fin 64) (o : Fin 32) (l : Fin 192) :
    broadcastTo S64x32x192 v h (ix3 p o l) = v (ix3 p (0 : Fin 1) l) :=
  broadcastTo_apply v h (ix3 p o l) (ix3 p (0 : Fin 1) l) fun ax =>
    match ax with
    | ⟨0, _⟩ => rfl
    | ⟨1, _⟩ => rfl
    | ⟨2, _⟩ => rfl

/-- A per-channel column [1,32,1] broadcast over rows and windows reads, at (p, o, l), the column at o. -/
theorem bcastChan_apply (v : S1x32x1.Idx → α) (h : S1x32x1.Broadcasts S64x32x192) (p : Fin 64) (o : Fin 32) (l : Fin 192) :
    broadcastTo S64x32x192 v h (ix3 p o l) = v (ix3 (0 : Fin 1) o (0 : Fin 1)) :=
  broadcastTo_apply v h (ix3 p o l) (ix3 (0 : Fin 1) o (0 : Fin 1)) fun ax =>
    match ax with
    | ⟨0, _⟩ => rfl
    | ⟨1, _⟩ => rfl
    | ⟨2, _⟩ => rfl

/-- [64,32] cast to [64,32,1]: entry (p, o, 0) is entry (p, o). -/
theorem castTapCol_apply (v : S64x32.Idx → α) (h : S64x32.ShapeCasts S64x32x1) (p : Fin 64) (o : Fin 32) :
    shapeCast S64x32x1 v h (ix3 p o (0 : Fin 1)) = v (ix2 p o) :=
  shapeCast_apply v h _ _ (by
    rw [Shape.rowMajor_val_two, Shape.rowMajor_val_three]
    show p.val * 32 + o.val = (p.val * 32 + o.val) * 1 + 0
    omega)

/-- [64,32,1] cast to [64,32]: entry (p, o) is entry (p, o, 0). -/
theorem castTapFlat_apply (v : S64x32x1.Idx → α) (h : S64x32x1.ShapeCasts S64x32) (p : Fin 64) (o : Fin 32) :
    shapeCast S64x32 v h (ix2 p o) = v (ix3 p o (0 : Fin 1)) :=
  shapeCast_apply v h _ _ (by
    rw [Shape.rowMajor_val_two, Shape.rowMajor_val_three]
    show (p.val * 32 + o.val) * 1 + 0 = p.val * 32 + o.val
    omega)

/-- Tap w cut out of the [64,32,9] filters: entry (p, o, 0) of the cut is entry (p, o, w). -/
theorem sliceTap_apply (v : S64x32x9.Idx → α) (w : ℕ) (hw : w < 9) (h : S64x32x9.Slices ![0, 0, w] S64x32x1)
    (p : Fin 64) (o : Fin 32) :
    extractStridedSlice S64x32x1 ![0, 0, w] v h (ix3 p o (0 : Fin 1)) = v (ix3 p o (⟨w, hw⟩ : Fin 9)) :=
  extractStridedSlice_apply _ v h _ _ fun ax =>
    match ax with
    | ⟨0, _⟩ => (Nat.zero_add _).symm
    | ⟨1, _⟩ => (Nat.zero_add _).symm
    | ⟨2, _⟩ => rfl

/-- The row shifted by w: entry (p, l) of the cut is entry (p, l + w). -/
theorem sliceWin_apply (v : S64x200.Idx → α) (w : ℕ) (hw : w < 9) (h : S64x200.Slices ![0, w] S64x192)
    (p : Fin 64) (l : Fin 192) :
    extractStridedSlice S64x192 ![0, w] v h (ix2 p l) = v (ix2 p (winIx l (⟨w, hw⟩ : Fin 9))) :=
  slice2_axis1_apply w v h p l (winIx l ⟨w, hw⟩) (Nat.add_comm _ _)

/-- [64,192] cast to [64,1,192]: entry (p, 0, l) is entry (p, l). -/
theorem castWin_apply (v : S64x192.Idx → α) (h : S64x192.ShapeCasts S64x1x192) (p : Fin 64) (l : Fin 192) :
    shapeCast S64x1x192 v h (ix3 p (0 : Fin 1) l) = v (ix2 p l) :=
  shapeCast_apply v h _ _ (by
    rw [Shape.rowMajor_val_two, Shape.rowMajor_val_three]
    show p.val * 192 + l.val = (p.val * 1 + 0) * 192 + l.val
    omega)

/-- [32] cast to [1,32,1]: entry (0, o, 0) is entry o. -/
theorem castChan_apply (v : S32.Idx → α) (h : S32.ShapeCasts S1x32x1) (o : Fin 32) :
    shapeCast S1x32x1 v h (ix3 (0 : Fin 1) o (0 : Fin 1)) = v (ix1 o) :=
  shapeCast_apply v h _ _ (by
    rw [Shape.rowMajor_val_one, Shape.rowMajor_val_three]
    show o.val = (0 * 32 + o.val) * 1 + 0
    omega)

/-- The feature map [64,32,192] flattened to [64,6144]: entry (p, q) is entry (p, q / 192, q % 192). -/
theorem castFlat_apply (v : S64x32x192.Idx → α) (h : S64x32x192.ShapeCasts S64x6144) (p : Fin 64) (q : Fin 6144) :
    shapeCast S64x6144 v h (ix2 p q) = v (ix3 p (chanIx q) (posIx q)) :=
  shapeCast_apply v h _ _ (by
    rw [Shape.rowMajor_val_two, Shape.rowMajor_val_three]
    show (p.val * 32 + q.val / 192) * 192 + q.val % 192 = p.val * 6144 + q.val
    omega)

/-- The filter rows [64,288] read as [64,32,9]: entry (p, o, w) is entry (p, 9·o + w). -/
theorem castTaps_apply (v : S64x288.Idx → α) (h : S64x288.ShapeCasts S64x32x9) (p : Fin 64) (o : Fin 32) (w : Fin 9) :
    shapeCast S64x32x9 v h (ix3 p o w) = v (ix2 p (tapIx o w)) :=
  shapeCast_apply v h _ _ (by
    rw [Shape.rowMajor_val_two, Shape.rowMajor_val_three]
    show p.val * 288 + (9 * o.val + w.val) = (p.val * 32 + o.val) * 9 + w.val
    omega)

/-! ## Pointwise operations the library leaves without a reading lemma -/

/-- A reciprocal square root at an index is that of the element. -/
theorem rsqrt_apply {s : Shape} {φ : FTy} (a : FVec Ideal s φ) (i : s.Idx) : rsqrt a i = Ideal.rsqrt (a i) := rfl

/-- The first product's dimension numbers are the plain ones. -/
theorem dot1_eq : dot_S64x200_S200x288_S64x288_1_0_0_1_n_n = DotDims.plain 64 200 288 := rfl

/-- The second product's dimension numbers are the plain ones. -/
theorem dot2_eq : dot_S64x6144_S6144x200_S64x200_1_0_0_1_n_n = DotDims.plain 64 6144 200 := rfl

/-! ## The payloads at an index -/

/-- The normalised entity rows: (e − m0) · (g0 · rsqrt (v0 + ε)) + b0. -/
theorem pay2_apply (v0 : Vec Ideal S64x200 .f32) (v2 v3 v4 v5 : Vec Ideal S1 .f32) (p : Fin 64) (d : Fin 200) :
    Gen.k0_pay2 (F := Ideal) v0 v2 v3 v4 v5 (ix2 p d)
      = (v0 (ix2 p d) - v2 (ix1 0)) * (v4 (ix1 0) * Ideal.rsqrt (v3 (ix1 0) + Ideal.ofBits .f32 0x3727C5AC#32)) + v5 (ix1 0) := by
  unfold Gen.k0_pay2
  simp only [addf_apply, mulf_apply, subf_apply]
  rw [shapeCast_self, bcast11_apply, bcast11_apply, bcast11_apply, shapeCast_a_1a_apply, shapeCast_a_1a_apply,
    shapeCast_a_1a_apply]
  rfl

/-- The multiplier row of the last affine map: g2 · rsqrt (v2 + ε). -/
theorem pay10_apply (v140 v141 : Vec Ideal S200 .f32) (c : Fin 200) :
    Gen.k0_pay10 (F := Ideal) v140 v141 (ix2 (0 : Fin 1) c)
      = v141 (ix1 c) * Ideal.rsqrt (v140 (ix1 c) + Ideal.ofBits .f32 0x3727C5AC#32) := by
  unfold Gen.k0_pay10
  exact shapeCast_a_1a_apply _ _ (0 : Fin 1) c

/-- The stored value: the last affine map's product and shift, clamped below at the zero word. -/
theorem pay1_apply (v142 : Vec Ideal S200 .f32) (v145 : FVec Ideal S64x200 .f32) (v150 : FVec Ideal S1x200 .f32)
    (p : Fin 64) (c : Fin 200) :
    Gen.k0_pay1 (F := Ideal) v142 v145 v150 (ix2 p c)
      = max (v145 (ix2 p c) * v150 (ix2 (0 : Fin 1) c) + v142 (ix1 c)) (Ideal.ofBits .f32 0x00000000#32) := by
  unfold Gen.k0_pay1
  simp only [maximumf_apply, addf_apply, mulf_apply, broadcast_apply]
  rw [broadcastTo_1b_ab_apply, broadcastTo_1b_ab_apply, shapeCast_a_1a_apply]
  rfl

/-- The filters: tap w of filter o of row p is entry 9·o + w of the relation row times the weights, plus the bias. -/
theorem pay3_apply (v19 : Vec Ideal S64x200 .f32) (v21 : Vec Ideal S200x288 .f32) (v22 : Vec Ideal S288 .f32)
    (p : Fin 64) (o : Fin 32) (w : Fin 9) :
    Gen.k0_pay3 (F := Ideal) v19 v21 v22 (ix3 p o w)
      = (∑ d : Fin 200, v19 (ix2 p d) * v21 (ix2 d (tapIx o w))) + v22 (ix1 (tapIx o w)) := by
  unfold Gen.k0_pay3
  refine (castTaps_apply _ _ p o w).trans ?_
  simp only [addf_apply]
  rw [dot1_eq, MatRows.matmul_plain_apply, broadcastTo_1b_ab_apply, shapeCast_a_1a_apply, shapeCast_self]
  rfl

/-- The feature map after tap 0: the zero word plus tap 0 times the unshifted row. -/
theorem pay4_apply (v0 : Vec Ideal S64x200 .f32) (v2 v3 v4 v5 : Vec Ideal S1 .f32) (v19 : Vec Ideal S64x200 .f32)
    (v21 : Vec Ideal S200x288 .f32) (v22 : Vec Ideal S288 .f32) (p : Fin 64) (o : Fin 32) (l : Fin 192) :
    Gen.k0_pay4 (F := Ideal) v0 v2 v3 v4 v5 v19 v21 v22 (ix3 p o l)
      = Ideal.ofBits .f32 0x00000000#32
          + Gen.k0_pay3 (F := Ideal) v19 v21 v22 (ix3 p o (0 : Fin 9))
            * Gen.k0_pay2 (F := Ideal) v0 v2 v3 v4 v5 (ix2 p (winIx l (0 : Fin 9))) := by
  unfold Gen.k0_pay4
  simp only [addf_apply, mulf_apply, broadcast_apply]
  rw [bcastTap_apply, bcastWin_apply, castTapCol_apply, castTapFlat_apply, sliceTap_apply _ 0 (by norm_num), castWin_apply,
    sliceWin_apply _ 0 (by norm_num)]
  rfl

/-- Tap 1 as a column. -/
theorem pay5_apply (v19 : Vec Ideal S64x200 .f32) (v21 : Vec Ideal S200x288 .f32) (v22 : Vec Ideal S288 .f32)
    (p : Fin 64) (o : Fin 32) :
    Gen.k0_pay5 (F := Ideal) v19 v21 v22 (ix3 p o (0 : Fin 1)) = Gen.k0_pay3 (F := Ideal) v19 v21 v22 (ix3 p o (1 : Fin 9)) := by
  unfold Gen.k0_pay5
  refine (castTapCol_apply _ _ p o).trans ?_
  refine (castTapFlat_apply _ _ p o).trans ?_
  exact sliceTap_apply _ 1 (by norm_num) _ p o

/-- The row shifted by one. -/
theorem pay6_apply (v0 : Vec Ideal S64x200 .f32) (v2 v3 v4 v5 : Vec Ideal S1 .f32) (p : Fin 64) (l : Fin 192) :
    Gen.k0_pay6 (F := Ideal) v0 v2 v3 v4 v5 (ix3 p (0 : Fin 1) l)
      = Gen.k0_pay2 (F := Ideal) v0 v2 v3 v4 v5 (ix2 p (winIx l (1 : Fin 9))) := by
  unfold Gen.k0_pay6
  refine (castWin_apply _ _ p l).trans ?_
  exact sliceWin_apply _ 1 (by norm_num) _ p l

/-- Tap 8 as a flat column. -/
theorem pay8_apply (v29 : FVec Ideal S64x32x9 .f32) (p : Fin 64) (o : Fin 32) :
    Gen.k0_pay8 (F := Ideal) v29 (ix2 p o) = v29 (ix3 p o (8 : Fin 9)) := by
  unfold Gen.k0_pay8
  refine (castTapFlat_apply _ _ p o).trans ?_
  exact sliceTap_apply _ 8 (by norm_num) _ p o

/-- The feature map after taps 1 … 7, from what it was after tap 0. -/
theorem pay7_apply (v18 : FVec Ideal S64x200 .f32) (v29 : FVec Ideal S64x32x9 .f32) (v39 : FVec Ideal S64x32x192 .f32)
    (v42 : FVec Ideal S64x32x1 .f32) (v44 : FVec Ideal S64x1x192 .f32) (p : Fin 64) (o : Fin 32) (l : Fin 192) :
    Gen.k0_pay7 (F := Ideal) v18 v29 v39 v42 v44 (ix3 p o l)
      = v39 (ix3 p o l) + v42 (ix3 p o (0 : Fin 1)) * v44 (ix3 p (0 : Fin 1) l)
          + v29 (ix3 p o (2 : Fin 9)) * v18 (ix2 p (winIx l (2 : Fin 9)))
          + v29 (ix3 p o (3 : Fin 9)) * v18 (ix2 p (winIx l (3 : Fin 9)))
          + v29 (ix3 p o (4 : Fin 9)) * v18 (ix2 p (winIx l (4 : Fin 9)))
          + v29 (ix3 p o (5 : Fin 9)) * v18 (ix2 p (winIx l (5 : Fin 9)))
          + v29 (ix3 p o (6 : Fin 9)) * v18 (ix2 p (winIx l (6 : Fin 9)))
          + v29 (ix3 p o (7 : Fin 9)) * v18 (ix2 p (winIx l (7 : Fin 9))) := by
  unfold Gen.k0_pay7
  simp only [addf_apply, mulf_apply, bcastTap_apply, bcastWin_apply, castTapCol_apply, castTapFlat_apply, castWin_apply,
    sliceTap_apply _ 2 (by norm_num), sliceTap_apply _ 3 (by norm_num), sliceTap_apply _ 4 (by norm_num),
    sliceTap_apply _ 5 (by norm_num), sliceTap_apply _ 6 (by norm_num), sliceTap_apply _ 7 (by norm_num),
    sliceWin_apply _ 2 (by norm_num), sliceWin_apply _ 3 (by norm_num), sliceWin_apply _ 4 (by norm_num),
    sliceWin_apply _ 5 (by norm_num), sliceWin_apply _ 6 (by norm_num), sliceWin_apply _ 7 (by norm_num)]
  try rfl

/-! ## The nine taps as a sum -/

/-- A window's value written out tap by tap, in the order the body adds them. -/
theorem convRow_nine (k : Fin 288 → EReal) (x : Fin 200 → EReal) (o : Fin 32) (l : Fin 192) :
    convRow k x o l
      = k (tapIx o (0 : Fin 9)) * x (winIx l (0 : Fin 9)) + k (tapIx o (1 : Fin 9)) * x (winIx l (1 : Fin 9))
          + k (tapIx o (2 : Fin 9)) * x (winIx l (2 : Fin 9)) + k (tapIx o (3 : Fin 9)) * x (winIx l (3 : Fin 9))
          + k (tapIx o (4 : Fin 9)) * x (winIx l (4 : Fin 9)) + k (tapIx o (5 : Fin 9)) * x (winIx l (5 : Fin 9))
          + k (tapIx o (6 : Fin 9)) * x (winIx l (6 : Fin 9)) + k (tapIx o (7 : Fin 9)) * x (winIx l (7 : Fin 9))
          + k (tapIx o (8 : Fin 9)) * x (winIx l (8 : Fin 9)) := by
  unfold convRow
  rw [Fin.sum_univ_castSucc, Fin.sum_univ_eight]
  rfl

/-- The feature map before its affine map: the nine taps of the filters against the normalised row. -/
theorem conv_apply (v0 : Vec Ideal S64x200 .f32) (v2 v3 v4 v5 : Vec Ideal S1 .f32) (v19 : Vec Ideal S64x200 .f32)
    (v21 : Vec Ideal S200x288 .f32) (v22 : Vec Ideal S288 .f32) (p : Fin 64) (o : Fin 32) (l : Fin 192) :
    Gen.k0_pay7 (F := Ideal) (Gen.k0_pay2 v0 v2 v3 v4 v5) (Gen.k0_pay3 v19 v21 v22) (Gen.k0_pay4 v0 v2 v3 v4 v5 v19 v21 v22)
          (Gen.k0_pay5 v19 v21 v22) (Gen.k0_pay6 v0 v2 v3 v4 v5) (ix3 p o l)
        + Gen.k0_pay8 (F := Ideal) (Gen.k0_pay3 v19 v21 v22) (ix2 p o)
          * Gen.k0_pay2 (F := Ideal) v0 v2 v3 v4 v5 (ix2 p (winIx l (8 : Fin 9)))
      = convRow (filtRow (fun d => v19 (ix2 p d)) (fun d q => v21 (ix2 d q)) (fun q => v22 (ix1 q)))
          (normRow (fun d => v0 (ix2 p d)) (v2 (ix1 0))
            (v4 (ix1 0) * Ideal.rsqrt (v3 (ix1 0) + Ideal.ofBits .f32 0x3727C5AC#32)) (v5 (ix1 0))) o l := by
  rw [pay7_apply, pay4_apply, pay5_apply, pay6_apply, pay8_apply, convRow_nine]
  simp only [pay3_apply, pay2_apply]
  rw [Ideal.ofBits_zero_f32, zero_add]
  rfl

/-- The dense layer's output minus the last mean: the flattened, channel-normalised feature map times the weights, plus
    the bias row, minus the mean row. -/
theorem pay9_apply (v18 : FVec Ideal S64x200 .f32) (v102 : FVec Ideal S64x32x192 .f32) (v104 : FVec Ideal S64x32 .f32)
    (v112 v114 v116 v118 : Vec Ideal S32 .f32) (v131 : Vec Ideal S6144x200 .f32) (v132 v139 : Vec Ideal S200 .f32)
    (p : Fin 64) (c : Fin 200) :
    Gen.k0_pay9 (F := Ideal) v18 v102 v104 v112 v114 v116 v118 v131 v132 v139 (ix2 p c)
      = (∑ q : Fin 6144,
            ((v102 (ix3 p (chanIx q) (posIx q))
                  + v104 (ix2 p (chanIx q)) * v18 (ix2 p (winIx (posIx q) (8 : Fin 9)))
                - v112 (ix1 (chanIx q)))
              * (v116 (ix1 (chanIx q)) * Ideal.rsqrt (v114 (ix1 (chanIx q)) + Ideal.ofBits .f32 0x3727C5AC#32))
              + v118 (ix1 (chanIx q))) * v131 (ix2 q c))
          + v132 (ix1 c) - v139 (ix1 c) := by
  unfold Gen.k0_pay9
  simp only [subf_apply, addf_apply]
  rw [dot2_eq, MatRows.matmul_plain_apply, broadcastTo_1b_ab_apply, broadcastTo_1b_ab_apply, shapeCast_a_1a_apply,
    shapeCast_a_1a_apply]
  refine congrArg₂ (· - ·) (congrArg₂ (· + ·) (Finset.sum_congr rfl fun q _ => ?_) rfl) rfl
  refine congrArg₂ (· * ·) ?_ rfl
  simp only [truncf_apply]
  refine (castFlat_apply _ _ p q).trans ?_
  simp only [addf_apply, mulf_apply, subf_apply, rsqrt_apply, broadcast_apply, bcastChan_apply, castChan_apply,
    bcastTap_apply, bcastWin_apply, castTapCol_apply, castWin_apply, sliceWin_apply _ 8 (by norm_num)]
  try rfl

end Cert.KernelIdeal.HyperBody

end
-- ==== Proof.HyperBody.lean ====
/-
  The first kernel's body at one entry of its output block.

  The body stores once, through the whole rectangle of its output block, and loads each of its eighteen input blocks
  through that block's whole rectangle: what it leaves is its stored payload over the blocks themselves. Reading the
  payloads at an index one after another gives the hidden row of the specification, entry by entry.
-/
import proofs.«171688_j3453153706530_2_alg».proof.Proof.Gen.KernelIdeal.Frame
import proofs.«171688_j3453153706530_2_alg».proof.Proof.HyperBodyPay
import proofs.«171688_j3453153706530_2_alg».proof.Proof.Spec
import proofs.«171688_j3453153706530_2_alg».proof.Proof.LibMatRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HyperBody

open Idealize.ShloMosaic Idealize.ShloMosaic.ValueIdx Cert.KernelIdeal Cert.HyperConv

/-- The zero offsets of a whole rank-2 rectangle. -/
theorem hz2 : (![0, 0] : Fin 2 → Nat) = fun _ => 0 := funext fun a => by fin_cases a <;> rfl

/-- The zero offset of a whole rank-1 rectangle. -/
theorem hz1 : (![0] : Fin 1 → Nat) = fun _ => 0 := funext fun a => by fin_cases a <;> rfl

/-- Entry (p, j) of what the body leaves in its output block is entry j of the hidden row of batch row p: the entity row
    normalised, the relation row's filters slid along it, each channel normalised, the flattened map sent through the
    dense layer, each feature normalised and clamped below at the zero word. -/
theorem out0_18_apply (x0 x1 : Vec Ideal S64x200 .f32) (x2 : Vec Ideal S200x288 .f32) (x3 : Vec Ideal S288 .f32)
    (x4 x5 x6 x7 : Vec Ideal S1 .f32) (x8 x9 x10 x11 : Vec Ideal S32 .f32) (x12 x13 x14 x15 : Vec Ideal S200 .f32)
    (x16 : Vec Ideal S6144x200 .f32) (x17 : Vec Ideal S200 .f32) (p : Fin 64) (j : Fin 200) :
    Gen.out0_18 (F := Ideal) x0 x1 x2 x3 x4 x5 x6 x7 x8 x9 x10 x11 x12 x13 x14 x15 x16 x17 (ix2 p j)
      = hiddenRow (fun d => x0 (ix2 p d)) (fun d => x1 (ix2 p d)) (fun d q => x2 (ix2 d q)) (fun q => x3 (ix1 q))
          (x6 (ix1 0)) (x4 (ix1 0) * Ideal.rsqrt (x7 (ix1 0) + Ideal.ofBits .f32 0x3727C5AC#32)) (x5 (ix1 0))
          (fun o => x10 (ix1 o)) (fun o => x8 (ix1 o) * Ideal.rsqrt (x11 (ix1 o) + Ideal.ofBits .f32 0x3727C5AC#32)) (fun o => x9 (ix1 o))
          (fun q c => x16 (ix2 q c)) (fun c => x17 (ix1 c))
          (fun c => x14 (ix1 c)) (fun c => x12 (ix1 c) * Ideal.rsqrt (x15 (ix1 c) + Ideal.ofBits .f32 0x3727C5AC#32)) (fun c => x13 (ix1 c)) j := by
  unfold Gen.out0_18
  rw [View.canon_unit_zero hz2]
  simp only [View.ld_unit_zero (S := S64x200) hz2, View.ld_unit_zero (S := S1) hz1, View.ld_unit_zero (S := S200x288) hz2,
    View.ld_unit_zero (S := S288) hz1, View.ld_unit_zero (S := S32) hz1, View.ld_unit_zero (S := S6144x200) hz2,
    View.ld_unit_zero (S := S200) hz1]
  rw [pay1_apply, pay10_apply, pay9_apply]
  simp only [conv_apply]
  simp only [hiddenRow, featNorm, denseRow, chanNorm]

end Cert.KernelIdeal.HyperBody

end
-- ==== Proof.Scale.lean ====
/-
  The one law that joins the two programs' spellings of an affine map's multiplier: for a positive extended real `z`
  (a variance plus a small positive constant), `g · z^(-1/2)` is `g / √z`, whatever the extended real `g`.
  At a positive real `z` both are `g` times the real `(√z)⁻¹`; at `z = +∞` both are `g · 0`.
  The law fails at `z = 0` (for `g = 0` the product is 0 and the quotient is the junk value of 0/0) and at negative
  `z` (the square roots are junk values there), which is why the statement carries `0 < z`.
-/
import Idealize.ShloMosaic.PureOps.Ideal

noncomputable section

namespace Cert.HyperConv

open Idealize.ShloMosaic

/-- `g · rsqrt z = g / sqrt z` on the extended reals, for `0 < z`. -/
theorem mul_rsqrt_eq_div_sqrt (g z : EReal) (hz : 0 < z) : g * Ideal.rsqrt z = Ideal.div g (Ideal.sqrt z) := by
  induction z using EReal.rec with
  | bot => exact absurd hz (not_lt.mpr bot_le)
  | top =>
    rw [Ideal.rsqrt_top, Ideal.sqrt_top, Ideal.div, if_neg EReal.top_ne_zero, EReal.inv_top]
  | coe r =>
    have hr : 0 < r := by exact_mod_cast hz
    have hs : Real.sqrt r ≠ 0 := (Real.sqrt_pos.mpr hr).ne'
    rw [Ideal.rsqrt_coe, if_neg (not_lt.mpr hr.le), if_neg hr.ne', Ideal.sqrt_coe, if_neg (not_lt.mpr hr.le),
      Ideal.div_coe hs, one_div]

end Cert.HyperConv

end
-- ==== Proof.HiddenArrays.lean ====
/-
  The hidden array as one function of whole arrays: row b of the hidden array is the hidden row of row b of the two
  embedding arrays, every parameter array read whole, each affine map's multiplier spelt g · (v + ε)^(-1/2). Where each
  v + ε is positive the same rows are given by the multipliers spelt g / √(v + ε).
-/
import proofs.«171688_j3453153706530_2_alg».proof.Proof.Spec
import proofs.«171688_j3453153706530_2_alg».proof.Proof.Scale
import Idealize.ShloMosaic.Lib.ValueIdx

noncomputable section

namespace Cert.HyperConv

open Idealize.ShloMosaic Idealize.ShloMosaic.ValueIdx

/-- Arrays of extended reals of rank 2 and rank 1, over literal extents. -/
abbrev A2 (a b : Nat) := (⟨2, ![a, b]⟩ : Shape).Idx → EReal
abbrev A1 (a : Nat) := (⟨1, ![a]⟩ : Shape).Idx → EReal

/-- The hidden array of 1024 batch rows, from the gathered embedding arrays and the parameter arrays. -/
def hiddenOfArrays (E1 R1 : A2 1024 200) (W1 : A2 200 288) (c1 : A1 288) (g0 b0 m0 v0 : A1 1) (g1 b1 m1 v1 : A1 32)
    (g2 b2 m2 v2 : A1 200) (Wfc : A2 6144 200) (cfc : A1 200) : A2 1024 200 := fun i =>
  hiddenRow (fun d => E1 (ix2 (i 0) d)) (fun d => R1 (ix2 (i 0) d)) (fun d q => W1 (ix2 d q)) (fun q => c1 (ix1 q))
    (m0 (ix1 0)) (g0 (ix1 0) * Ideal.rsqrt (v0 (ix1 0) + Ideal.ofBits .f32 0x3727C5AC#32)) (b0 (ix1 0))
    (fun o => m1 (ix1 o)) (fun o => g1 (ix1 o) * Ideal.rsqrt (v1 (ix1 o) + Ideal.ofBits .f32 0x3727C5AC#32)) (fun o => b1 (ix1 o))
    (fun q k => Wfc (ix2 q k)) (fun k => cfc (ix1 k))
    (fun k => m2 (ix1 k)) (fun k => g2 (ix1 k) * Ideal.rsqrt (v2 (ix1 k) + Ideal.ofBits .f32 0x3727C5AC#32)) (fun k => b2 (ix1 k)) (i 1)

/-- Where every variance plus ε is positive, row b of the hidden array is the hidden row with the multipliers g / √(v + ε). -/
theorem hiddenOfArrays_div (E1 R1 : A2 1024 200) (W1 : A2 200 288) (c1 : A1 288) (g0 b0 m0 v0 : A1 1) (g1 b1 m1 v1 : A1 32)
    (g2 b2 m2 v2 : A1 200) (Wfc : A2 6144 200) (cfc : A1 200)
    (h0 : 0 < v0 (ix1 0) + Ideal.ofBits .f32 0x3727C5AC#32) (h1 : ∀ o : Fin 32, 0 < v1 (ix1 o) + Ideal.ofBits .f32 0x3727C5AC#32)
    (h2 : ∀ k : Fin 200, 0 < v2 (ix1 k) + Ideal.ofBits .f32 0x3727C5AC#32) (b : Fin 1024) (j : Fin 200) :
    hiddenOfArrays E1 R1 W1 c1 g0 b0 m0 v0 g1 b1 m1 v1 g2 b2 m2 v2 Wfc cfc (ix2 b j)
      = hiddenRow (fun d => E1 (ix2 b d)) (fun d => R1 (ix2 b d)) (fun d q => W1 (ix2 d q)) (fun q => c1 (ix1 q))
          (m0 (ix1 0)) (Ideal.div (g0 (ix1 0)) (Ideal.sqrt (v0 (ix1 0) + Ideal.ofBits .f32 0x3727C5AC#32))) (b0 (ix1 0))
          (fun o => m1 (ix1 o)) (fun o => Ideal.div (g1 (ix1 o)) (Ideal.sqrt (v1 (ix1 o) + Ideal.ofBits .f32 0x3727C5AC#32))) (fun o => b1 (ix1 o))
          (fun q k => Wfc (ix2 q k)) (fun k => cfc (ix1 k))
          (fun k => m2 (ix1 k)) (fun k => Ideal.div (g2 (ix1 k)) (Ideal.sqrt (v2 (ix1 k) + Ideal.ofBits .f32 0x3727C5AC#32))) (fun k => b2 (ix1 k)) j := by
  have s1 : (fun o : Fin 32 => g1 (ix1 o) * Ideal.rsqrt (v1 (ix1 o) + Ideal.ofBits .f32 0x3727C5AC#32))
      = fun o => Ideal.div (g1 (ix1 o)) (Ideal.sqrt (v1 (ix1 o) + Ideal.ofBits .f32 0x3727C5AC#32)) :=
    funext fun o => mul_rsqrt_eq_div_sqrt _ _ (h1 o)
  have s2 : (fun k : Fin 200 => g2 (ix1 k) * Ideal.rsqrt (v2 (ix1 k) + Ideal.ofBits .f32 0x3727C5AC#32))
      = fun k => Ideal.div (g2 (ix1 k)) (Ideal.sqrt (v2 (ix1 k) + Ideal.ofBits .f32 0x3727C5AC#32)) :=
    funext fun k => mul_rsqrt_eq_div_sqrt _ _ (h2 k)
  unfold hiddenOfArrays
  rw [mul_rsqrt_eq_div_sqrt _ _ h0, s1, s2]

end Cert.HyperConv

end
-- ==== Proof.KArray0.lean ====
/-
  The first kernel's array. Its 16 row blocks tile the hidden array, and block `t` is the restriction to rows
  64·t … 64·t + 63 of ONE function of the arrays the kernel finds: row b of the hidden array is the hidden row of row b
  of the two gathered embedding arrays, with the parameter arrays read whole. So after the kernel the hidden array is
  that function.
-/
import proofs.«171688_j3453153706530_2_alg».proof.Proof.Gen.KernelIdeal.Frame
import proofs.«171688_j3453153706530_2_alg».proof.Proof.KBlocks0
import proofs.«171688_j3453153706530_2_alg».proof.Proof.HyperBody
import proofs.«171688_j3453153706530_2_alg».proof.Proof.Spec
import proofs.«171688_j3453153706530_2_alg».proof.Proof.HiddenArrays
import Idealize.ShloMosaic.Lib.ValueIdx
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.HyperConv

variable (V : (c : Dev nD) → (b : Ref sig .tc) → Buf (Elt Ideal) ((c : Thread nD τ).loc b))

/-- The hidden array as one function of the arrays the first kernel finds. -/
def hiddenArr (c : Dev nD) : S1024x200.Idx → EReal :=
  hiddenOfArrays (V c main_v6) (V c main_v13) (V c main_arg6) (V c main_arg7) (V c main_arg8) (V c main_arg9) (V c main_arg10) (V c main_arg11) (V c main_arg12) (V c main_arg13) (V c main_arg14) (V c main_arg15) (V c main_arg16) (V c main_arg17) (V c main_arg18) (V c main_arg19) (V c main_arg4) (V c main_arg5)

/-- What the body leaves in its block, at a block index. -/
theorem out0_18_at (x0 x1 : Vec Ideal S64x200 .f32) (x2 : Vec Ideal S200x288 .f32) (x3 : Vec Ideal S288 .f32)
    (x4 x5 x6 x7 : Vec Ideal S1 .f32) (x8 x9 x10 x11 : Vec Ideal S32 .f32) (x12 x13 x14 x15 : Vec Ideal S200 .f32)
    (x16 : Vec Ideal S6144x200 .f32) (x17 : Vec Ideal S200 .f32) (y : S64x200.Idx) :
    out0_18 (F := Ideal) x0 x1 x2 x3 x4 x5 x6 x7 x8 x9 x10 x11 x12 x13 x14 x15 x16 x17 y
      = hiddenRow (fun d => x0 (ix2 (y 0) d)) (fun d => x1 (ix2 (y 0) d)) (fun d q => x2 (ix2 d q)) (fun q => x3 (ix1 q))
          (x6 (ix1 0)) (x4 (ix1 0) * Ideal.rsqrt (x7 (ix1 0) + Ideal.ofBits .f32 0x3727C5AC#32)) (x5 (ix1 0))
          (fun o => x10 (ix1 o)) (fun o => x8 (ix1 o) * Ideal.rsqrt (x11 (ix1 o) + Ideal.ofBits .f32 0x3727C5AC#32)) (fun o => x9 (ix1 o))
          (fun q k => x16 (ix2 q k)) (fun k => x17 (ix1 k))
          (fun k => x14 (ix1 k)) (fun k => x12 (ix1 k) * Ideal.rsqrt (x15 (ix1 k) + Ideal.ofBits .f32 0x3727C5AC#32)) (fun k => x13 (ix1 k)) (y 1) :=
  (congrArg (out0_18 (F := Ideal) x0 x1 x2 x3 x4 x5 x6 x7 x8 x9 x10 x11 x12 x13 x14 x15 x16 x17) (eq_ix2 y)).trans
    (HyperBody.out0_18_apply x0 x1 x2 x3 x4 x5 x6 x7 x8 x9 x10 x11 x12 x13 x14 x15 x16 x17 (y 0) (y 1))

/-- An element of point `t`'s output block sits at row 64·t plus its row in the block. -/
theorem emb0_18_0 (t : Fin cfg0.N) (y : S64x200.Idx) :
    ((((cfg0.win 18).blk t).view.emb y) 0).val = 64 * t.val + (y 0).val := by
  show win0_18.index t (0 : Fin 2) * 64 + 1 * (y 0).val = 64 * t.val + (y 0).val
  rw [ix0_18_0 t]; omega

/-- An element of point `t`'s output block keeps its column. -/
theorem emb0_18_1 (t : Fin cfg0.N) (y : S64x200.Idx) :
    ((((cfg0.win 18).blk t).view.emb y) 1).val = (y 1).val := by
  show win0_18.index t (1 : Fin 2) * 200 + 1 * (y 1).val = (y 1).val
  rw [ix0_18_1 t]; omega

/-- What point `t` writes back is block `t` of `hiddenArr`. -/
theorem flushed0_eq (c : Dev nD) (t : Fin cfg0.N) :
    (dat0 V c).flushed 18 t = ((cfg0.win 18).blk t).view.read (Elt Ideal) (hiddenArr V c) := by
  show (cfg0.win 18).cut (grid0.coords t) ((dat0 V c).after 18 t) = _
  rw [after0_18]
  funext y
  show out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) y = hiddenArr V c (((cfg0.win 18).blk t).view.emb y)
  refine (out0_18_at (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) y).trans ?_
  have e0 : (fun d : Fin 200 => iblk0 V c 0 t (ix2 (y 0) d))
      = fun d => V c main_v6 (ix2 (n0 := 1024) (n1 := 200) ((((cfg0.win 18).blk t).view.emb y) 0) d) :=
    funext fun d => read0_0 V c t (y 0) d _ (emb0_18_0 t y) rfl
  have e1 : (fun d : Fin 200 => iblk0 V c 1 t (ix2 (y 0) d))
      = fun d => V c main_v13 (ix2 (n0 := 1024) (n1 := 200) ((((cfg0.win 18).blk t).view.emb y) 0) d) :=
    funext fun d => read0_1 V c t (y 0) d _ (emb0_18_0 t y) rfl
  have ej : (y 1 : Fin 200) = (((cfg0.win 18).blk t).view.emb y) 1 := Fin.ext (emb0_18_1 t y).symm
  unfold hiddenArr hiddenOfArrays
  rw [e0, e1]
  simp only [read0_2, read0_3, read0_4, read0_5, read0_6, read0_7, read0_8, read0_9, read0_10, read0_11, read0_12,
    read0_13, read0_14, read0_15, read0_16, read0_17]
  rw [ej]

/-- An index of the hidden array is in point `t`'s block iff each coordinate is in the block's range. -/
theorem mem_blk0 (t : Fin cfg0.N) (i : S1024x200.Idx) :
    i ∈ ((cfg0.win 18).blk t).view.set ↔ ∀ a : Fin 2, win0_18.index t a * S64x200.size a ≤ (i a).val
      ∧ (i a).val < win0_18.index t a * S64x200.size a + S64x200.size a := by
  show i ∈ ((View.whole main_v14).slice (win0_18.rect t)).set ↔ _
  rw [View.set_slice_whole, Rect.mem_set_unit]
  exact Iff.rfl

/-- The 16 row blocks cover the hidden array: row b is in block b / 64. -/
theorem cover0 (i : S1024x200.Idx) :
    ∃ t : Fin cfg0.N, (cfg0.win 18).flush t = true ∧ i ∈ ((cfg0.win 18).blk t).view.set := by
  have hi0 : (i 0).val < 1024 := (i 0).isLt
  have hi1 : (i 1).val < 200 := (i 1).isLt
  obtain ⟨t, ht⟩ := onto0 ⟨(i 0).val / 64, by omega⟩
  have ht' : t.val = (i 0).val / 64 := ht
  refine ⟨t, flush0_18 t, ?_⟩
  rw [mem_blk0]
  intro a
  match a with
  | ⟨0, _⟩ =>
    show win0_18.index t (0 : Fin 2) * 64 ≤ (i 0).val ∧ (i 0).val < win0_18.index t (0 : Fin 2) * 64 + 64
    rw [ix0_18_0 t, ht']; omega
  | ⟨1, _⟩ =>
    show win0_18.index t (1 : Fin 2) * 200 ≤ (i 1).val ∧ (i 1).val < win0_18.index t (1 : Fin 2) * 200 + 200
    rw [ix0_18_1 t]; omega

/-- After the first kernel the hidden array is `hiddenArr` of the arrays it found. -/
theorem final0 (c : Dev nD) : (dat0 V c).arrAt 18 cfg0.N = hiddenArr V c :=
  (dat0 V c).arrAt_eq_of_cover 18 (hiddenArr V c) (fun t _ => flushed0_eq V c t) (cover0)

end Cert.KernelIdeal.KValue

end
-- ==== Proof.KBlocks1.lean ====
/-
  The second kernel's windows, block by block. The grid has 66 points; point `t` takes the whole hidden array, rows
  1536·t … 1536·t + 1535 of the padded entity embeddings, columns 1536·t … of the padded bias row, and writes columns
  1536·t … 1536·t + 1535 of the padded result.
-/
import proofs.«171688_j3453153706530_2_alg».proof.Proof.Gen.KernelIdeal.Frame
import Idealize.ShloMosaic.Lib.ValueIdx
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

/-! ## The printed index maps over the 66 grid points -/

theorem ix1_0_0 : ∀ t : Fin cfg1.N, win1_0.index t (0 : Fin 2) = 0 :=
  (by decide +kernel : ∀ t : Fin grid1.N, win1_0.index t (0 : Fin 2) = 0)
theorem ix1_0_1 : ∀ t : Fin cfg1.N, win1_0.index t (1 : Fin 2) = 0 :=
  (by decide +kernel : ∀ t : Fin grid1.N, win1_0.index t (1 : Fin 2) = 0)
theorem ix1_1_0 : ∀ t : Fin cfg1.N, win1_1.index t (0 : Fin 2) = t.val :=
  (by decide +kernel : ∀ t : Fin grid1.N, win1_1.index t (0 : Fin 2) = t.val)
theorem ix1_1_1 : ∀ t : Fin cfg1.N, win1_1.index t (1 : Fin 2) = 0 :=
  (by decide +kernel : ∀ t : Fin grid1.N, win1_1.index t (1 : Fin 2) = 0)
theorem ix1_2_0 : ∀ t : Fin cfg1.N, win1_2.index t (0 : Fin 2) = 0 :=
  (by decide +kernel : ∀ t : Fin grid1.N, win1_2.index t (0 : Fin 2) = 0)
theorem ix1_2_1 : ∀ t : Fin cfg1.N, win1_2.index t (1 : Fin 2) = t.val :=
  (by decide +kernel : ∀ t : Fin grid1.N, win1_2.index t (1 : Fin 2) = t.val)
theorem ix1_3_0 : ∀ t : Fin cfg1.N, win1_3.index t (0 : Fin 2) = 0 :=
  (by decide +kernel : ∀ t : Fin grid1.N, win1_3.index t (0 : Fin 2) = 0)
theorem ix1_3_1 : ∀ t : Fin cfg1.N, win1_3.index t (1 : Fin 2) = t.val :=
  (by decide +kernel : ∀ t : Fin grid1.N, win1_3.index t (1 : Fin 2) = t.val)
theorem lt1 : ∀ t : Fin cfg1.N, t.val < 66 :=
  (by decide +kernel : ∀ t : Fin grid1.N, t.val < 66)
/-- Every column block is some point's. -/
theorem onto1 : ∀ q : Fin 66, ∃ t : Fin cfg1.N, t.val = q.val :=
  (by decide +kernel : ∀ q : Fin 66, ∃ t : Fin grid1.N, t.val = q.val)

/-! ## An input block read at an index -/

section Reads

variable {F : FTy → Type} [FloatOps F]
variable (V : (c : Dev nD) → (b : Ref sig .tc) → Buf (Elt F) ((c : Thread nD τ).loc b))

/-- The hidden array's one block is the array. -/
theorem read1_0 (c : Dev nD) (t : Fin cfg1.N) (b : Fin 1024) (d : Fin 200) (i : S1024x200.Idx)
    (h0 : (i 0).val = b.val) (h1 : (i 1).val = d.val) :
    iblk1 V c 0 t (ix2 b d) = V c main_v14 i := by
  show V c main_v14 (((cfg1.win 0).blk t).view.emb (ix2 b d)) = _
  refine congrArg (V c main_v14) (funext fun a => Fin.ext ?_)
  match a with
  | ⟨0, _⟩ =>
    show win1_0.index t (0 : Fin 2) * 1024 + 1 * b.val = (i 0).val
    rw [ix1_0_0 t, h0]; omega
  | ⟨1, _⟩ =>
    show win1_0.index t (1 : Fin 2) * 200 + 1 * d.val = (i 1).val
    rw [ix1_0_1 t, h1]; omega

/-- Row `n` of point `t`'s block of the padded embeddings is row 1536·t + n of the array. -/
theorem read1_1 (c : Dev nD) (t : Fin cfg1.N) (n : Fin 1536) (d : Fin 200) (i : S101376x200.Idx)
    (h0 : (i 0).val = 1536 * t.val + n.val) (h1 : (i 1).val = d.val) :
    iblk1 V c 1 t (ix2 n d) = V c main_v15 i := by
  show V c main_v15 (((cfg1.win 1).blk t).view.emb (ix2 n d)) = _
  refine congrArg (V c main_v15) (funext fun a => Fin.ext ?_)
  match a with
  | ⟨0, _⟩ =>
    show win1_1.index t (0 : Fin 2) * 1536 + 1 * n.val = (i 0).val
    rw [ix1_1_0 t, h0]; omega
  | ⟨1, _⟩ =>
    show win1_1.index t (1 : Fin 2) * 200 + 1 * d.val = (i 1).val
    rw [ix1_1_1 t, h1]; omega

/-- Column `n` of point `t`'s block of the padded bias row is column 1536·t + n of the row. -/
theorem read1_2 (c : Dev nD) (t : Fin cfg1.N) (n : Fin 1536) (i : S1x101376.Idx)
    (h0 : (i 0).val = 0) (h1 : (i 1).val = 1536 * t.val + n.val) :
    iblk1 V c 2 t (ix2 (0 : Fin 1) n) = V c main_v17 i := by
  show V c main_v17 (((cfg1.win 2).blk t).view.emb (ix2 (0 : Fin 1) n)) = _
  refine congrArg (V c main_v17) (funext fun a => Fin.ext ?_)
  match a with
  | ⟨0, _⟩ =>
    show win1_2.index t (0 : Fin 2) * 1 + 1 * 0 = (i 0).val
    rw [ix1_2_0 t, h0]
  | ⟨1, _⟩ =>
    show win1_2.index t (1 : Fin 2) * 1536 + 1 * n.val = (i 1).val
    rw [ix1_2_1 t, h1]; omega

end Reads

end Cert.KernelIdeal.KValue

end
-- ==== Proof.ScoreBody.lean ====
/-
  The second kernel's body at one entry. Its block of the result holds, at row `b` (one of the 1024 batch rows) and
  column `n` (one of the 1536 entities of the block), the logistic function of the inner product of hidden row `b`
  with the embedding of entity `n`, plus that entity's bias: the product contracts the last axis of both operands, the
  bias block is one row broadcast down the batch, and the changes of float format on the way in are the identity on the
  extended reals.
-/
import proofs.«171688_j3453153706530_2_alg».proof.Proof.Gen.KernelIdeal.Frame
import proofs.«171688_j3453153706530_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.ScoreBody

open Idealize.ShloMosaic Idealize.ShloMosaic.ValueIdx Cert.KernelIdeal Cert.HyperConv

/-- The product's dimension numbers: [1024,200] by [1536,200], both contracted on their last axis. -/
abbrev D := dot_S1024x200_S1536x200_S1024x1536_1_1_0_0_n_n

/-- Its contraction index set is the shared extent 200. -/
abbrev contrFin : D.contr.Idx ≃ Fin 200 := contrEquiv1 D 200 rfl rfl

/-- At result entry (b, n) and contraction position k the left operand is read at (b, k). -/
theorem lhsIdx_eq (b : Fin 1024) (n : Fin 1536) (k : Fin 200) :
    D.lhsIdx (ix2 b n) (contrFin.symm k) = ix2 b k := by
  funext a
  refine Fin.ext ?_
  match a with
  | ⟨0, _⟩ => rfl
  | ⟨1, _⟩ =>
    exact (D.lhsIdx_val_of_single (cl := (1 : Fin 2)) rfl (ix2 b n) _).trans (contrEquiv1_symm_val D 200 rfl rfl k)

/-- At result entry (b, n) and contraction position k the right operand is read at (n, k). -/
theorem rhsIdx_eq (b : Fin 1024) (n : Fin 1536) (k : Fin 200) :
    D.rhsIdx (ix2 b n) (contrFin.symm k) = ix2 n k := by
  funext a
  refine Fin.ext ?_
  match a with
  | ⟨0, _⟩ => rfl
  | ⟨1, _⟩ =>
    exact (D.rhsIdx_val_of_single (cr := (1 : Fin 2)) rfl (ix2 b n) _).trans (contrEquiv1_symm_val D 200 rfl rfl k)

/-- The product into the zero array, at entry (b, n): the inner product of row b of the left with row n of the right. -/
theorem matmul_rows_apply {φ₁ φ₂ : FTy} (l : FVec Ideal S1024x200 φ₁) (r : FVec Ideal S1536x200 φ₂) (b : Fin 1024) (n : Fin 1536) :
    matmul D none l r (constant (F := Ideal) S1024x1536 .f32 0x00000000#32) (ix2 b n)
      = ∑ k : Fin 200, l (ix2 b k) * r (ix2 n k) := by
  refine (Ideal.matmul_constant_zero_apply D none l r (ix2 b n)).trans ?_
  rw [← Equiv.sum_comp contrFin.symm]
  exact Finset.sum_congr rfl fun k _ => by rw [lhsIdx_eq, rhsIdx_eq]

/-- The body's stored value at (b, n) is the score of hidden row b against entity n of the block. -/
theorem k1_pay1_apply (v0 : Vec Ideal S1024x200 .f32) (v3 : Vec Ideal S1536x200 .f32) (v7 : Vec Ideal S1x1536 .f32)
    (b : Fin 1024) (n : Fin 1536) :
    Gen.k1_pay1 (F := Ideal) v0 v3 v7 (ix2 b n)
      = score (fun d => v0 (ix2 b d)) (fun d => v3 (ix2 n d)) (v7 (ix2 (0 : Fin 1) n)) := by
  unfold Gen.k1_pay1 score
  dsimp only
  rw [shapeCast_self, shapeCast_self, shapeCast_self]
  show Ideal.logistic (matmul (F := Ideal) D none _ _ _ (ix2 b n) + broadcastTo S1024x1536 v7 _ (ix2 b n)) = _
  rw [matmul_rows_apply, broadcastTo_1b_ab_apply]
  rfl

theorem hz : (![0, 0] : Fin 2 → Nat) = fun _ => 0 := funext fun a => by fin_cases a <;> rfl

/-- What the body leaves in its output block, at (b, n). -/
theorem out1_3_apply (x0 : Vec Ideal S1024x200 .f32) (x1 : Vec Ideal S1536x200 .f32) (x2 : Vec Ideal S1x1536 .f32)
    (b : Fin 1024) (n : Fin 1536) :
    Gen.out1_3 (F := Ideal) x0 x1 x2 (ix2 b n)
      = score (fun d => x0 (ix2 b d)) (fun d => x1 (ix2 n d)) (x2 (ix2 (0 : Fin 1) n)) := by
  unfold Gen.out1_3
  rw [View.canon_unit_zero hz]
  simp only [View.ld_unit_zero (S := S1024x200) hz, View.ld_unit_zero (S := S1536x200) hz, View.ld_unit_zero (S := S1x1536) hz]
  exact k1_pay1_apply x0 x1 x2 b n

end Cert.KernelIdeal.ScoreBody

end
-- ==== Proof.KArray1.lean ====
/-
  The second kernel's array. Its 66 column blocks tile the padded result, and block `t` is the restriction to columns
  1536·t … of ONE function of the arrays the kernel finds: entry (b, n) is the score of row b of the hidden array against
  row n of the padded embeddings, with entry n of the padded bias row. So after the kernel the padded result is that
  function.
-/
import proofs.«171688_j3453153706530_2_alg».proof.Proof.Gen.KernelIdeal.Frame
import proofs.«171688_j3453153706530_2_alg».proof.Proof.KBlocks1
import proofs.«171688_j3453153706530_2_alg».proof.Proof.ScoreBody
import proofs.«171688_j3453153706530_2_alg».proof.Proof.Spec
import Idealize.ShloMosaic.Lib.ValueIdx
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.HyperConv

variable (V : (c : Dev nD) → (b : Ref sig .tc) → Buf (Elt Ideal) ((c : Thread nD τ).loc b))

/-- The padded result as one function of the arrays the second kernel finds. -/
def scoreArr (c : Dev nD) : S1024x101376.Idx → EReal := fun i =>
  score (fun d => V c main_v14 (ix2 (n0 := 1024) (n1 := 200) (i 0) d))
    (fun d => V c main_v15 (ix2 (n0 := 101376) (n1 := 200) (i 1) d))
    (V c main_v17 (ix2 (n0 := 1) (n1 := 101376) (0 : Fin 1) (i 1)))

/-- What the body leaves in its block, at a block index. -/
theorem out1_3_at (x0 : Vec Ideal S1024x200 .f32) (x1 : Vec Ideal S1536x200 .f32) (x2 : Vec Ideal S1x1536 .f32)
    (y : S1024x1536.Idx) :
    out1_3 (F := Ideal) x0 x1 x2 y
      = score (fun d => x0 (ix2 (y 0) d)) (fun d => x1 (ix2 (y 1) d)) (x2 (ix2 (0 : Fin 1) (y 1))) :=
  (congrArg (out1_3 (F := Ideal) x0 x1 x2) (eq_ix2 y)).trans (ScoreBody.out1_3_apply x0 x1 x2 (y 0) (y 1))

/-- An element of point `t`'s output block keeps its row. -/
theorem emb1_3_0 (t : Fin cfg1.N) (y : S1024x1536.Idx) :
    ((((cfg1.win 3).blk t).view.emb y) 0).val = (y 0).val := by
  show win1_3.index t (0 : Fin 2) * 1024 + 1 * (y 0).val = (y 0).val
  rw [ix1_3_0 t]; omega

/-- An element of point `t`'s output block sits at column 1536·t plus its column in the block. -/
theorem emb1_3_1 (t : Fin cfg1.N) (y : S1024x1536.Idx) :
    ((((cfg1.win 3).blk t).view.emb y) 1).val = 1536 * t.val + (y 1).val := by
  show win1_3.index t (1 : Fin 2) * 1536 + 1 * (y 1).val = 1536 * t.val + (y 1).val
  rw [ix1_3_1 t]; omega

/-- What point `t` writes back is block `t` of `scoreArr`. -/
theorem flushed1_eq (c : Dev nD) (t : Fin cfg1.N) :
    (dat1 V c).flushed 3 t = ((cfg1.win 3).blk t).view.read (Elt Ideal) (scoreArr V c) := by
  show (cfg1.win 3).cut (grid1.coords t) ((dat1 V c).after 3 t) = _
  rw [after1_3]
  funext y
  show out1_3 (iblk1 V c 0 t) (iblk1 V c 1 t) (iblk1 V c 2 t) y = scoreArr V c (((cfg1.win 3).blk t).view.emb y)
  refine (out1_3_at (iblk1 V c 0 t) (iblk1 V c 1 t) (iblk1 V c 2 t) y).trans ?_
  have e0 : (fun d : Fin 200 => iblk1 V c 0 t (ix2 (y 0) d))
      = fun d => V c main_v14 (ix2 (n0 := 1024) (n1 := 200) ((((cfg1.win 3).blk t).view.emb y) 0) d) :=
    funext fun d => read1_0 V c t (y 0) d _ (emb1_3_0 t y) rfl
  have e1 : (fun d : Fin 200 => iblk1 V c 1 t (ix2 (y 1) d))
      = fun d => V c main_v15 (ix2 (n0 := 101376) (n1 := 200) ((((cfg1.win 3).blk t).view.emb y) 1) d) :=
    funext fun d => read1_1 V c t (y 1) d _ (emb1_3_1 t y) rfl
  have e2 : iblk1 V c 2 t (ix2 (0 : Fin 1) (y 1))
      = V c main_v17 (ix2 (n0 := 1) (n1 := 101376) (0 : Fin 1) ((((cfg1.win 3).blk t).view.emb y) 1)) :=
    read1_2 V c t (y 1) _ rfl (emb1_3_1 t y)
  rw [e0, e1, e2]
  rfl

/-- An index of the padded result is in point `t`'s block iff each coordinate is in the block's range. -/
theorem mem_blk1 (t : Fin cfg1.N) (i : S1024x101376.Idx) :
    i ∈ ((cfg1.win 3).blk t).view.set ↔ ∀ a : Fin 2, win1_3.index t a * S1024x1536.size a ≤ (i a).val
      ∧ (i a).val < win1_3.index t a * S1024x1536.size a + S1024x1536.size a := by
  show i ∈ ((View.whole main_v18).slice (win1_3.rect t)).set ↔ _
  rw [View.set_slice_whole, Rect.mem_set_unit]
  exact Iff.rfl

/-- The 66 column blocks cover the padded result: column n is in block n / 1536. -/
theorem cover1 (i : S1024x101376.Idx) :
    ∃ t : Fin cfg1.N, (cfg1.win 3).flush t = true ∧ i ∈ ((cfg1.win 3).blk t).view.set := by
  have hi0 : (i 0).val < 1024 := (i 0).isLt
  have hi1 : (i 1).val < 101376 := (i 1).isLt
  obtain ⟨t, ht⟩ := onto1 ⟨(i 1).val / 1536, by omega⟩
  have ht' : t.val = (i 1).val / 1536 := ht
  refine ⟨t, flush1_3 t, ?_⟩
  rw [mem_blk1]
  intro a
  match a with
  | ⟨0, _⟩ =>
    show win1_3.index t (0 : Fin 2) * 1024 ≤ (i 0).val ∧ (i 0).val < win1_3.index t (0 : Fin 2) * 1024 + 1024
    rw [ix1_3_0 t]; omega
  | ⟨1, _⟩ =>
    show win1_3.index t (1 : Fin 2) * 1536 ≤ (i 1).val ∧ (i 1).val < win1_3.index t (1 : Fin 2) * 1536 + 1536
    rw [ix1_3_1 t, ht']; omega

/-- After the second kernel the padded result array is `scoreArr` of the arrays it found. -/
theorem final1 (c : Dev nD) : (dat1 V c).arrAt 3 cfg1.N = scoreArr V c :=
  (dat1 V c).arrAt_eq_of_cover 3 (scoreArr V c) (fun t _ => flushed1_eq V c t) (cover1)

end Cert.KernelIdeal.KValue

end
-- ==== Proof.KHost.lean ====
/-
  What the host operations around the two kernels leave in the buffers the kernels read, and what the final slice keeps.
  Before the first kernel: two row gathers of the embedding tables (kept as the host's own terms) and nothing else that a
  kernel reads, so each parameter array is as launched. Between the kernels: the entity table padded with 1376 rows below,
  the bias vector padded with 1376 entries and laid out as one row; the hidden array is what the first kernel left. After
  the second kernel: the first 100000 columns of the padded result. An entry of a padded array inside the original is the
  original's entry, so the kept columns never see the padding.
-/
import proofs.«171688_j3453153706530_2_alg».proof.Proof.Gen.KernelIdeal.Frame
import proofs.«171688_j3453153706530_2_alg».proof.Proof.KArray0
import proofs.«171688_j3453153706530_2_alg».proof.Proof.KArray1
import proofs.«171688_j3453153706530_2_alg».proof.Proof.Spec
import Idealize.ShloMosaic.Lib.ValueIdx
import Idealize.ShloMosaic.Lib.Pipeline.Value
import Idealize.ShloMosaic.Lib.KernelVsHost

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.HyperConv

open Idealize.ShloMosaic.StableHlo

variable (m : (ℓ : Loc nD τ sig) → Buf (Elt Ideal) ℓ) (ρ : Dev nD → PrngReg)

/-! ## The first kernel's entry contents -/

theorem V1_main_arg2 (c : Dev nD) : V1 m ρ c main_arg2 = m ((c : Thread nD τ).loc main_arg2) := by
  show StableHlo.after hostOps0 (W0 m ρ c) (Proc.devRef .tc main_arg2) = _
  dsimp only [hostOps0]
  after_results
  all_goals rfl
theorem V1_main_arg4 (c : Dev nD) : V1 m ρ c main_arg4 = m ((c : Thread nD τ).loc main_arg4) := by
  show StableHlo.after hostOps0 (W0 m ρ c) (Proc.devRef .tc main_arg4) = _
  dsimp only [hostOps0]
  after_results
  all_goals rfl
theorem V1_main_arg5 (c : Dev nD) : V1 m ρ c main_arg5 = m ((c : Thread nD τ).loc main_arg5) := by
  show StableHlo.after hostOps0 (W0 m ρ c) (Proc.devRef .tc main_arg5) = _
  dsimp only [hostOps0]
  after_results
  all_goals rfl
theorem V1_main_arg6 (c : Dev nD) : V1 m ρ c main_arg6 = m ((c : Thread nD τ).loc main_arg6) := by
  show StableHlo.after hostOps0 (W0 m ρ c) (Proc.devRef .tc main_arg6) = _
  dsimp only [hostOps0]
  after_results
  all_goals rfl
theorem V1_main_arg7 (c : Dev nD) : V1 m ρ c main_arg7 = m ((c : Thread nD τ).loc main_arg7) := by
  show StableHlo.after hostOps0 (W0 m ρ c) (Proc.devRef .tc main_arg7) = _
  dsimp only [hostOps0]
  after_results
  all_goals rfl
theorem V1_main_arg8 (c : Dev nD) : V1 m ρ c main_arg8 = m ((c : Thread nD τ).loc main_arg8) := by
  show StableHlo.after hostOps0 (W0 m ρ c) (Proc.devRef .tc main_arg8) = _
  dsimp only [hostOps0]
  after_results
  all_goals rfl
theorem V1_main_arg9 (c : Dev nD) : V1 m ρ c main_arg9 = m ((c : Thread nD τ).loc main_arg9) := by
  show StableHlo.after hostOps0 (W0 m ρ c) (Proc.devRef .tc main_arg9) = _
  dsimp only [hostOps0]
  after_results
  all_goals rfl
theorem V1_main_arg10 (c : Dev nD) : V1 m ρ c main_arg10 = m ((c : Thread nD τ).loc main_arg10) := by
  show StableHlo.after hostOps0 (W0 m ρ c) (Proc.devRef .tc main_arg10) = _
  dsimp only [hostOps0]
  after_results
  all_goals rfl
theorem V1_main_arg11 (c : Dev nD) : V1 m ρ c main_arg11 = m ((c : Thread nD τ).loc main_arg11) := by
  show StableHlo.after hostOps0 (W0 m ρ c) (Proc.devRef .tc main_arg11) = _
  dsimp only [hostOps0]
  after_results
  all_goals rfl
theorem V1_main_arg12 (c : Dev nD) : V1 m ρ c main_arg12 = m ((c : Thread nD τ).loc main_arg12) := by
  show StableHlo.after hostOps0 (W0 m ρ c) (Proc.devRef .tc main_arg12) = _
  dsimp only [hostOps0]
  after_results
  all_goals rfl
theorem V1_main_arg13 (c : Dev nD) : V1 m ρ c main_arg13 = m ((c : Thread nD τ).loc main_arg13) := by
  show StableHlo.after hostOps0 (W0 m ρ c) (Proc.devRef .tc main_arg13) = _
  dsimp only [hostOps0]
  after_results
  all_goals rfl
theorem V1_main_arg14 (c : Dev nD) : V1 m ρ c main_arg14 = m ((c : Thread nD τ).loc main_arg14) := by
  show StableHlo.after hostOps0 (W0 m ρ c) (Proc.devRef .tc main_arg14) = _
  dsimp only [hostOps0]
  after_results
  all_goals rfl
theorem V1_main_arg15 (c : Dev nD) : V1 m ρ c main_arg15 = m ((c : Thread nD τ).loc main_arg15) := by
  show StableHlo.after hostOps0 (W0 m ρ c) (Proc.devRef .tc main_arg15) = _
  dsimp only [hostOps0]
  after_results
  all_goals rfl
theorem V1_main_arg16 (c : Dev nD) : V1 m ρ c main_arg16 = m ((c : Thread nD τ).loc main_arg16) := by
  show StableHlo.after hostOps0 (W0 m ρ c) (Proc.devRef .tc main_arg16) = _
  dsimp only [hostOps0]
  after_results
  all_goals rfl
theorem V1_main_arg17 (c : Dev nD) : V1 m ρ c main_arg17 = m ((c : Thread nD τ).loc main_arg17) := by
  show StableHlo.after hostOps0 (W0 m ρ c) (Proc.devRef .tc main_arg17) = _
  dsimp only [hostOps0]
  after_results
  all_goals rfl
theorem V1_main_arg18 (c : Dev nD) : V1 m ρ c main_arg18 = m ((c : Thread nD τ).loc main_arg18) := by
  show StableHlo.after hostOps0 (W0 m ρ c) (Proc.devRef .tc main_arg18) = _
  dsimp only [hostOps0]
  after_results
  all_goals rfl
theorem V1_main_arg19 (c : Dev nD) : V1 m ρ c main_arg19 = m ((c : Thread nD τ).loc main_arg19) := by
  show StableHlo.after hostOps0 (W0 m ρ c) (Proc.devRef .tc main_arg19) = _
  dsimp only [hostOps0]
  after_results
  all_goals rfl
theorem V1_main_arg20 (c : Dev nD) : V1 m ρ c main_arg20 = m ((c : Thread nD τ).loc main_arg20) := by
  show StableHlo.after hostOps0 (W0 m ρ c) (Proc.devRef .tc main_arg20) = _
  dsimp only [hostOps0]
  after_results
  all_goals rfl

/-! ## The second kernel's entry contents -/

/-- The hidden array reaches the second kernel as the first kernel left it. -/
theorem V7_main_v14 (c : Dev nD) : V7 m ρ c main_v14 = hiddenArr (V1 m ρ) c := by
  show StableHlo.after hostOps1_4 (StableHlo.after hostOps1_3 (StableHlo.after hostOps1_2 (StableHlo.after hostOps1_1
    (StableHlo.after hostOps1 (W2 m ρ c))))) (Proc.devRef .tc main_v14) = _
  dsimp only [hostOps1, hostOps1_1, hostOps1_2, hostOps1_3, hostOps1_4, StableHlo.TRef.unary, StableHlo.TRef.binary]
  after_results
  exact (W2_arr m ρ c 18).trans (final0 (V1 m ρ) c)

/-- Inside the table, the padded entity embeddings are the table. -/
theorem V7_main_v15 (c : Dev nD) (n : Fin 100000) (d : Fin 200) (i : S101376x200.Idx)
    (h0 : (i 0).val = n.val) (h1 : (i 1).val = d.val) :
    V7 m ρ c main_v15 i = m ((c : Thread nD τ).loc main_arg2) (ix2 (n0 := 100000) (n1 := 200) n d) := by
  have e : V7 m ρ c main_v15 = pad S101376x200 ![0, 0] ![1376, 0] ![0, 0] (m ((c : Thread nD τ).loc main_arg2))
      (sitofp (F := Ideal) .f32 (constantI S_ 32 0#32)) pads_S100000x200_S101376x200_013760_000 h_S_ := by
    show StableHlo.after hostOps1_4 (StableHlo.after hostOps1_3 (StableHlo.after hostOps1_2 (StableHlo.after hostOps1_1
      (StableHlo.after hostOps1 (W2 m ρ c))))) (Proc.devRef .tc main_v15) = _
    dsimp only [hostOps1, hostOps1_1, hostOps1_2, hostOps1_3, hostOps1_4, StableHlo.TRef.unary, StableHlo.TRef.binary]
    after_results
    rw [W2_of_ne m ρ c main_arg2 (by decide),
      show W1 m ρ c (Proc.devRef .tc main_arg2) = m ((c : Thread nD τ).loc main_arg2) from V1_main_arg2 m ρ c]
    rfl
  rw [e]
  refine pad_apply_of_inside _ _ _ _ _ _ _ i (ix2 (n0 := 100000) (n1 := 200) n d) fun a => ?_
  match a with
  | ⟨0, _⟩ => show (i 0).val = 0 + n.val * (0 + 1); rw [h0]; omega
  | ⟨1, _⟩ => show (i 1).val = 0 + d.val * (0 + 1); rw [h1]; omega

/-- Inside the vector, the padded bias row is the vector. -/
theorem V7_main_v17 (c : Dev nD) (n : Fin 100000) (i : S1x101376.Idx) (h0 : (i 0).val = 0) (h1 : (i 1).val = n.val) :
    V7 m ρ c main_v17 i = m ((c : Thread nD τ).loc main_arg20) (ix1 (n := 100000) n) := by
  have e : V7 m ρ c main_v17 = shapeCast S1x101376 (pad S101376 ![0] ![1376] ![0] (m ((c : Thread nD τ).loc main_arg20))
      (sitofp (F := Ideal) .f32 (constantI S_ 32 0#32)) pads_S100000_S101376_013760 h_S_) shapeCasts_S101376_S1x101376 := by
    show StableHlo.after hostOps1_4 (StableHlo.after hostOps1_3 (StableHlo.after hostOps1_2 (StableHlo.after hostOps1_1
      (StableHlo.after hostOps1 (W2 m ρ c))))) (Proc.devRef .tc main_v17) = _
    dsimp only [hostOps1, hostOps1_1, hostOps1_2, hostOps1_3, hostOps1_4, StableHlo.TRef.unary, StableHlo.TRef.binary]
    after_results
    rw [W2_of_ne m ρ c main_arg20 (by decide),
      show W1 m ρ c (Proc.devRef .tc main_arg20) = m ((c : Thread nD τ).loc main_arg20) from V1_main_arg20 m ρ c]
    rfl
  rw [e]
  have hi1 : (i 1).val < 101376 := (i 1).isLt
  refine (shapeCast_apply _ _ i (ix1 (n := 101376) ⟨(i 1).val, hi1⟩) ?_).trans ?_
  · rw [Shape.rowMajor_val_one, Shape.rowMajor_val_two]
    show (i 1).val = (i 0).val * 101376 + (i 1).val
    rw [h0]; omega
  · refine pad_apply_of_inside _ _ _ _ _ _ _ _ (ix1 (n := 100000) n) fun a => ?_
    match a with
    | ⟨0, _⟩ => show (i 1).val = 0 + n.val * (0 + 1); rw [h1]; omega

/-! ## The result -/

/-- The result buffer after @main: the first 100000 columns of the padded result. -/
theorem W9_main_v19 (c : Dev nD) (b : Fin 1024) (n : Fin 100000) :
    W9 m ρ c (Proc.devRef .tc main_v19) (ix2 (n0 := 1024) (n1 := 100000) b n)
      = score (fun d => hiddenArr (V1 m ρ) c (ix2 (n0 := 1024) (n1 := 200) b d))
          (fun d => m ((c : Thread nD τ).loc main_arg2) (ix2 (n0 := 100000) (n1 := 200) n d))
          (m ((c : Thread nD τ).loc main_arg20) (ix1 (n := 100000) n)) := by
  have e : W9 m ρ c (Proc.devRef .tc main_v19)
      = extractStridedSlice S1024x100000 ![0, 0] (scoreArr (V7 m ρ) c) slices_S1024x101376_S1024x100000_0_0 := by
    show StableHlo.after hostOps2 (W8 m ρ c) (Proc.devRef .tc main_v19) = _
    dsimp only [hostOps2]
    after_results
    exact congrArg (fun x => extractStridedSlice S1024x100000 ![0, 0] x slices_S1024x101376_S1024x100000_0_0)
      ((W8_arr m ρ c 3).trans (final1 (V7 m ρ) c))
  rw [e]
  have hn : n.val < 101376 := by have := n.isLt; omega
  refine (extractStridedSlice_apply _ _ _ _ (ix2 (n0 := 1024) (n1 := 101376) b ⟨n.val, hn⟩) fun a => ?_).trans ?_
  · match a with
    | ⟨0, _⟩ => show b.val = 0 + b.val; omega
    | ⟨1, _⟩ => show n.val = 0 + n.val; omega
  · unfold scoreArr
    have e0 : (fun d : Fin 200 => V7 m ρ c main_v14 (ix2 (n0 := 1024) (n1 := 200) b d))
        = fun d => hiddenArr (V1 m ρ) c (ix2 (n0 := 1024) (n1 := 200) b d) := by rw [V7_main_v14]
    have e1 : (fun d : Fin 200 => V7 m ρ c main_v15 (ix2 (n0 := 101376) (n1 := 200) (⟨n.val, hn⟩ : Fin 101376) d))
        = fun d => m ((c : Thread nD τ).loc main_arg2) (ix2 (n0 := 100000) (n1 := 200) n d) :=
      funext fun d => V7_main_v15 m ρ c n d _ rfl rfl
    have e2 : V7 m ρ c main_v17 (ix2 (n0 := 1) (n1 := 101376) (0 : Fin 1) (⟨n.val, hn⟩ : Fin 101376))
        = m ((c : Thread nD τ).loc main_arg20) (ix1 (n := 100000) n) := V7_main_v17 m ρ c n _ rfl rfl
    show score (fun d => V7 m ρ c main_v14 (ix2 (n0 := 1024) (n1 := 200) b d))
      (fun d => V7 m ρ c main_v15 (ix2 (n0 := 101376) (n1 := 200) (⟨n.val, hn⟩ : Fin 101376) d))
      (V7 m ρ c main_v17 (ix2 (n0 := 1) (n1 := 101376) (0 : Fin 1) (⟨n.val, hn⟩ : Fin 101376))) = _
    rw [e0, e1, e2]

end Cert.KernelIdeal.KValue

end
-- ==== Proof.RefRead.lean ====
/-
  The reference program read one entry at a time.

  Each stage of the reference is read at one index from the stage before it: the entity row after its affine map, the
  filter taps (a dense layer of the relation row, read as 32 filters of 9 taps), the windows of the entity row, the
  feature map (every filter against every window), its channel-wise affine map, the channel-major flattening, the
  second dense layer, the feature-wise affine map with its clamp at zero, and the score. Chained, they say that the
  hidden activation and the result are the specification's `hiddenRow` and `score` on the entity and relation rows
  gathered for the batch row, for all argument arrays. The two embedding-row gathers are not opened. The window gather is
  read directly from the definition of a gather: its start word for window l and tap w is the 32-bit sum of two counters,
  l + w, which is neither negative nor beyond the row, so entry (b, l, w) is the row's entry (b, l + w).
-/
import proofs.«171688_j3453153706530_2_alg».proof.Proof.Gen.ReferenceIdeal.Read
import proofs.«171688_j3453153706530_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefRead

open Cert.ReferenceIdeal Cert.ReferenceIdeal.Gen Idealize.ShloMosaic Idealize.ShloMosaic.ValueIdx Cert.HyperConv

/-- An f32 array of shape `s` at the ideal values. -/
abbrev A (s : Shape) : Type := (⟨s, .f32⟩ : BufTy).Contents (Elt Ideal)
/-- An i32 array of shape `s`. -/
abbrev AI (s : Shape) : Type := (⟨s, .i32⟩ : BufTy).Contents (Elt Ideal)

local notation "ε" => Ideal.ofBits FTy.f32 0x3727C5AC#32

/-- The word 0x3F800000 is the number one. -/
theorem ofBits_one_f32 : Ideal.ofBits .f32 0x3F800000#32 = 1 := by
  simp [Ideal.ofBits, Ideal.ieee]
  rw [← EReal.coe_mul]
  norm_num

/-- The sliding-window gather read at one entry: window l, tap w of batch row b is the operand row at the start
    word for (l, w), read signed and clamped into the row. -/
theorem gather_win_apply {α : Type} (y : S1024x200.Idx → α) (idx : IVec S192x9x1 32) (b : Fin 1024) (l : Fin 192) (w : Fin 9) :
    Host.gather gather_S1024x200_S192x9x1_S1024x192x9_0_1_n_n_1_2_10241 y idx (ix3 b l w)
      = y (ix2 b ⟨min (idx (ix3 l w (0 : Fin 1))).toInt.toNat 199, by omega⟩) := by
  unfold Host.gather
  congr 1
  funext a
  refine Fin.ext ?_
  match a with
  | ⟨0, _⟩ =>
    show gather_S1024x200_S192x9x1_S1024x192x9_0_1_n_n_1_2_10241.start (ix3 b l w) idx 0
      + gather_S1024x200_S192x9x1_S1024x192x9_0_1_n_n_1_2_10241.batchCoord (ix3 b l w) 0
      + gather_S1024x200_S192x9x1_S1024x192x9_0_1_n_n_1_2_10241.offCoord (ix3 b l w) 0 = b.val
    rw [GatherDims.batchCoord_eq_zero _ _ _ List.not_mem_nil]
    unfold GatherDims.start
    rw [dif_neg (show ¬ (0 : Fin 2) ∈ gather_S1024x200_S192x9x1_S1024x192x9_0_1_n_n_1_2_10241.startIndexMap by decide)]
    unfold GatherDims.offCoord
    rw [dif_pos (show (0 : Fin 2) ∈ gather_S1024x200_S192x9x1_S1024x192x9_0_1_n_n_1_2_10241.sKept by decide)]
    simp only [Nat.add_zero, Nat.zero_add]
    rfl
  | ⟨1, _⟩ =>
    show gather_S1024x200_S192x9x1_S1024x192x9_0_1_n_n_1_2_10241.start (ix3 b l w) idx 1
      + gather_S1024x200_S192x9x1_S1024x192x9_0_1_n_n_1_2_10241.batchCoord (ix3 b l w) 1
      + gather_S1024x200_S192x9x1_S1024x192x9_0_1_n_n_1_2_10241.offCoord (ix3 b l w) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x200_S192x9x1_S1024x192x9_0_1_n_n_1_2_10241.startIndexMap from List.mem_singleton.mpr rfl)]
    have hsi : gather_S1024x200_S192x9x1_S1024x192x9_0_1_n_n_1_2_10241.siIdx (ix3 b l w)
        ⟨List.idxOf (1 : Fin 2) gather_S1024x200_S192x9x1_S1024x192x9_0_1_n_n_1_2_10241.startIndexMap,
          List.idxOf_lt_length_iff.2 (List.mem_singleton.mpr rfl)⟩ = ix3 l w (0 : Fin 1) := by
      funext c; refine Fin.ext ?_
      match c with
      | ⟨0, _⟩ => rfl
      | ⟨1, _⟩ => rfl
      | ⟨2, _⟩ => rfl
    rw [hsi]
    rfl

/-- The start word of window l, tap w: the 32-bit sum of the two counters is l + w, which is not negative, so the
    wrap-around branch is not taken and the clamp into the row does nothing. -/
theorem win_word (l : Fin 192) (w : Fin 9) :
    min (Scalar.select
          (IntOp.cmpi .slt (IntOp.addi (BitVec.ofNat 32 l.val) (BitVec.ofNat 32 w.val)) 0#32)
          (IntOp.addi (IntOp.addi (BitVec.ofNat 32 l.val) (BitVec.ofNat 32 w.val)) 200#32)
          (IntOp.addi (BitVec.ofNat 32 l.val) (BitVec.ofNat 32 w.val))).toInt.toNat 199 = l.val + w.val := by
  have hl := l.isLt
  have hw := w.isLt
  have hs : IntOp.addi (BitVec.ofNat 32 l.val) (BitVec.ofNat 32 w.val) = BitVec.ofNat 32 (l.val + w.val) :=
    (BitVec.ofNat_add _ _).symm
  have hn : (BitVec.ofNat 32 (l.val + w.val)).toNat = l.val + w.val := by
    rw [BitVec.toNat_ofNat]; omega
  have hi : (BitVec.ofNat 32 (l.val + w.val)).toInt = ((l.val + w.val : Nat) : Int) := by
    rw [BitVec.toInt_eq_toNat_cond, hn]
    rw [if_pos (by omega)]
  have hc : IntOp.cmpi .slt (BitVec.ofNat 32 (l.val + w.val)) 0#32 = 0#1 := by
    show BitVec.ofBool ((BitVec.ofNat 32 (l.val + w.val)).slt 0#32) = 0#1
    have : (BitVec.ofNat 32 (l.val + w.val)).slt 0#32 = false := by
      rw [BitVec.slt, hi]
      simp
      omega
    rw [this]; rfl
  rw [hs, hc, select_zero, hi]
  simp only [Int.toNat_natCast]
  omega

/-- The normalised entity row (the reference's first affine map) at entry (b, c). -/
theorem norm_apply (x0 : AI S1024) (x2 : A S100000x200) (x8 x9 x10 x11 : A S1) (b : Fin 1024) (c : Fin 200) :
    Read.val_main_v26 (F := Ideal) x0 x2 x8 x9 x10 x11 (ix2 b c)
      = normRow (fun d => Read.val_main_v6 (F := Ideal) x0 x2 (ix2 b d)) (x10 (ix1 0))
          (Ideal.div (x8 (ix1 0)) (Ideal.sqrt (x11 (ix1 0) + ε))) (x9 (ix1 0)) c := by
  have e15 : Read.idx_main_v14 (Read.idx_main_v15 (ix2 b c)) = ix1 0 :=
    funext fun a => Fin.ext (by match a with | ⟨0, _⟩ => rfl)
  have e22 : Read.idx_main_v21 (Read.idx_main_v22 (ix2 b c)) = ix1 0 :=
    funext fun a => Fin.ext (by match a with | ⟨0, _⟩ => rfl)
  have e25 : Read.idx_main_v24 (Read.idx_main_v25 (ix2 b c)) = ix1 0 :=
    funext fun a => Fin.ext (by match a with | ⟨0, _⟩ => rfl)
  rw [Read.val_main_v26_apply, Read.val_main_v23_apply, Read.val_main_v16_apply, Read.val_main_v15_apply,
    Read.val_main_v14_apply, Read.val_main_v22_apply, Read.val_main_v21_apply, Read.val_main_v20_apply,
    Read.val_main_v19_apply, Read.val_main_v18_apply, Read.val_main_v17_apply, Read.val_main_cst_apply,
    Read.val_main_v25_apply, Read.val_main_v24_apply, e15, e22, e25]
  simp only [Ideal.addf_def, Ideal.subf_def, Ideal.mulf_def, Ideal.hostDivf_def, Ideal.hostUnary_sqrt_def, Ideal.ofBits_def]
  rfl

/-- The filter taps (the dense layer of the relation row, read as 32 filters of 9 taps) at entry (b, o, w). -/
theorem filt_apply (x1 : AI S1024) (x3 : A S500x200) (x6 : A S200x288) (x7 : A S288) (b : Fin 1024) (o : Fin 32) (w : Fin 9) :
    Read.val_main_v31 (F := Ideal) x1 x3 x6 x7 (ix3 b o w)
      = filtRow (fun d => Read.val_main_v13 (F := Ideal) x1 x3 (ix2 b d)) (fun d q => x6 (ix2 d q))
          (fun q => x7 (ix1 q)) (tapIx o w) := by
  have e31 : Read.idx_main_v31 (ix3 b o w) = ix2 b (tapIx o w) := funext fun a => Fin.ext (by
    have hb := b.isLt; have ho := o.isLt; have hw := w.isLt
    match a with
    | ⟨0, _⟩ => show ((b.val * 32 + o.val) * 9 + w.val) / 288 = b.val; omega
    | ⟨1, _⟩ => show ((b.val * 32 + o.val) * 9 + w.val) % 288 = 9 * o.val + w.val; omega)
  have el : ∀ k : Fin 200, Read.lidx_main_v27 (ix2 b (tapIx o w)) k = ix2 b k := fun k =>
    funext fun a => Fin.ext (by match a with | ⟨0, _⟩ => rfl | ⟨1, _⟩ => rfl)
  have er : ∀ k : Fin 200, Read.ridx_main_v27 (ix2 b (tapIx o w)) k = ix2 k (tapIx o w) := fun k =>
    funext fun a => Fin.ext (by match a with | ⟨0, _⟩ => rfl | ⟨1, _⟩ => rfl)
  have e29 : Read.idx_main_v28 (Read.idx_main_v29 (ix2 b (tapIx o w))) = ix1 (tapIx o w) :=
    funext fun a => Fin.ext (by match a with | ⟨0, _⟩ => rfl)
  rw [Read.val_main_v31_apply, e31, Read.val_main_v30_apply, Read.val_main_v27_apply, Read.val_main_v29_apply,
    Read.val_main_v28_apply, e29]
  simp only [el, er, Ideal.addf_def]
  rfl

/-- The windows of the normalised row at entry (b, l, w): position l + w of batch row b. -/
theorem win_apply (x0 : AI S1024) (x2 : A S100000x200) (x8 x9 x10 x11 : A S1) (b : Fin 1024) (l : Fin 192) (w : Fin 9) :
    Read.val_main_v45 (F := Ideal) x0 x2 x8 x9 x10 x11 (ix3 b l w)
      = Read.val_main_v26 (F := Ideal) x0 x2 x8 x9 x10 x11 (ix2 b (winIx l w)) := by
  unfold Read.val_main_v45
  refine (gather_win_apply _ _ b l w).trans ?_
  refine congrArg (fun q : Fin 200 => Read.val_main_v26 (F := Ideal) x0 x2 x8 x9 x10 x11 (ix2 b q)) (Fin.ext ?_)
  show min (Read.val_main_v44 (F := Ideal) (ix3 l w (0 : Fin 1))).toInt.toNat 199 = l.val + w.val
  have e44 : Read.idx_main_v44 (ix3 l w (0 : Fin 1)) = ix2 l w :=
    funext fun a => Fin.ext (by match a with | ⟨0, _⟩ => rfl | ⟨1, _⟩ => rfl)
  rw [Read.val_main_v44_apply, e44, Read.val_main_v43_apply, Read.val_main_v40_apply, Read.val_main_v42_apply,
    Read.val_main_v38_apply, Read.val_main_v36_apply, Read.val_main_v33_apply, Read.val_main_v32_apply,
    Read.val_main_v37_apply, Read.val_main_v35_apply, Read.val_main_v34_apply, Read.val_main_v39_apply,
    Read.val_main_c_3_apply, Read.val_main_v41_apply, Read.val_main_c_4_apply]
  exact win_word l w

/-- The feature map at entry (b, o, l): the 9 taps of filter o against window l. -/
theorem conv_apply (x0 x1 : AI S1024) (x2 : A S100000x200) (x3 : A S500x200) (x6 : A S200x288) (x7 : A S288)
    (x8 x9 x10 x11 : A S1) (b : Fin 1024) (o : Fin 32) (l : Fin 192) :
    Read.val_main_v46 (F := Ideal) x0 x1 x2 x3 x6 x7 x8 x9 x10 x11 (ix3 b o l)
      = convRow
          (filtRow (fun d => Read.val_main_v13 (F := Ideal) x1 x3 (ix2 b d)) (fun d q => x6 (ix2 d q)) (fun q => x7 (ix1 q)))
          (normRow (fun d => Read.val_main_v6 (F := Ideal) x0 x2 (ix2 b d)) (x10 (ix1 0))
            (Ideal.div (x8 (ix1 0)) (Ideal.sqrt (x11 (ix1 0) + ε))) (x9 (ix1 0))) o l := by
  rw [Read.val_main_v46_apply]
  unfold convRow
  refine Finset.sum_congr rfl fun k _ => ?_
  have el : Read.lidx_main_v46 (ix3 b o l) k = ix3 b o k :=
    funext fun a => Fin.ext (by match a with | ⟨0, _⟩ => rfl | ⟨1, _⟩ => rfl | ⟨2, _⟩ => rfl)
  have er : Read.ridx_main_v46 (ix3 b o l) k = ix3 b l k :=
    funext fun a => Fin.ext (by match a with | ⟨0, _⟩ => rfl | ⟨1, _⟩ => rfl | ⟨2, _⟩ => rfl)
  rw [el, er, filt_apply, win_apply, norm_apply]

/-- The feature map after each channel's affine map, at entry (b, o, l). -/
theorem chan_apply (x0 x1 : AI S1024) (x2 : A S100000x200) (x3 : A S500x200) (x6 : A S200x288) (x7 : A S288)
    (x8 x9 x10 x11 : A S1) (x12 x13 x14 x15 : A S32) (b : Fin 1024) (o : Fin 32) (l : Fin 192) :
    Read.val_main_v62 (F := Ideal) x0 x1 x2 x3 x6 x7 x8 x9 x10 x11 x12 x13 x14 x15 (ix3 b o l)
      = chanNorm (convRow
          (filtRow (fun d => Read.val_main_v13 (F := Ideal) x1 x3 (ix2 b d)) (fun d q => x6 (ix2 d q)) (fun q => x7 (ix1 q)))
          (normRow (fun d => Read.val_main_v6 (F := Ideal) x0 x2 (ix2 b d)) (x10 (ix1 0))
            (Ideal.div (x8 (ix1 0)) (Ideal.sqrt (x11 (ix1 0) + ε))) (x9 (ix1 0))))
          (fun o => x14 (ix1 o)) (fun o => Ideal.div (x12 (ix1 o)) (Ideal.sqrt (x15 (ix1 o) + ε))) (fun o => x13 (ix1 o)) o l := by
  have e49 : Read.idx_main_v47 (Read.idx_main_v48 (Read.idx_main_v49 (ix3 b o l))) = ix1 o :=
    funext fun a => Fin.ext (by match a with | ⟨0, _⟩ => rfl)
  have e57 : Read.idx_main_v55 (Read.idx_main_v56 (Read.idx_main_v57 (ix3 b o l))) = ix1 o :=
    funext fun a => Fin.ext (by match a with | ⟨0, _⟩ => rfl)
  have e61 : Read.idx_main_v59 (Read.idx_main_v60 (Read.idx_main_v61 (ix3 b o l))) = ix1 o :=
    funext fun a => Fin.ext (by match a with | ⟨0, _⟩ => rfl)
  rw [Read.val_main_v62_apply, Read.val_main_v58_apply, Read.val_main_v50_apply, Read.val_main_v49_apply,
    Read.val_main_v48_apply, Read.val_main_v47_apply, Read.val_main_v57_apply, Read.val_main_v56_apply,
    Read.val_main_v55_apply, Read.val_main_v54_apply, Read.val_main_v53_apply, Read.val_main_v52_apply,
    Read.val_main_v51_apply, Read.val_main_cst_5_apply, Read.val_main_v61_apply, Read.val_main_v60_apply,
    Read.val_main_v59_apply, e49, e57, e61, conv_apply]
  simp only [Ideal.addf_def, Ideal.subf_def, Ideal.mulf_def, Ideal.hostDivf_def, Ideal.hostUnary_sqrt_def, Ideal.ofBits_def]
  rfl

/-- The flattened feature map at entry (b, q): channel q / 192, window q % 192. -/
theorem flat_apply (x0 x1 : AI S1024) (x2 : A S100000x200) (x3 : A S500x200) (x6 : A S200x288) (x7 : A S288)
    (x8 x9 x10 x11 : A S1) (x12 x13 x14 x15 : A S32) (b : Fin 1024) (q : Fin 6144) :
    Read.val_main_v63 (F := Ideal) x0 x1 x2 x3 x6 x7 x8 x9 x10 x11 x12 x13 x14 x15 (ix2 b q)
      = Read.val_main_v62 (F := Ideal) x0 x1 x2 x3 x6 x7 x8 x9 x10 x11 x12 x13 x14 x15 (ix3 b (chanIx q) (posIx q)) := by
  have e63 : Read.idx_main_v63 (ix2 b q) = ix3 b (chanIx q) (posIx q) := funext fun a => Fin.ext (by
    have hb := b.isLt; have hq := q.isLt
    match a with
    | ⟨0, _⟩ => show (b.val * 6144 + q.val) / 6144 = b.val; omega
    | ⟨1, _⟩ => show (b.val * 6144 + q.val) / 192 % 32 = q.val / 192; omega
    | ⟨2, _⟩ => show (b.val * 6144 + q.val) % 192 = q.val % 192; omega)
  rw [Read.val_main_v63_apply, e63]

/-- The second dense layer at entry (b, j). -/
theorem dense_apply (x0 x1 : AI S1024) (x2 : A S100000x200) (x3 : A S500x200) (x4 : A S6144x200) (x5 : A S200)
    (x6 : A S200x288) (x7 : A S288) (x8 x9 x10 x11 : A S1) (x12 x13 x14 x15 : A S32) (b : Fin 1024) (j : Fin 200) :
    Read.val_main_v67 (F := Ideal) x0 x1 x2 x3 x4 x5 x6 x7 x8 x9 x10 x11 x12 x13 x14 x15 (ix2 b j)
      = denseRow (chanNorm (convRow
          (filtRow (fun d => Read.val_main_v13 (F := Ideal) x1 x3 (ix2 b d)) (fun d q => x6 (ix2 d q)) (fun q => x7 (ix1 q)))
          (normRow (fun d => Read.val_main_v6 (F := Ideal) x0 x2 (ix2 b d)) (x10 (ix1 0))
            (Ideal.div (x8 (ix1 0)) (Ideal.sqrt (x11 (ix1 0) + ε))) (x9 (ix1 0))))
          (fun o => x14 (ix1 o)) (fun o => Ideal.div (x12 (ix1 o)) (Ideal.sqrt (x15 (ix1 o) + ε))) (fun o => x13 (ix1 o)))
          (fun q c => x4 (ix2 q c)) (fun c => x5 (ix1 c)) j := by
  have e66 : Read.idx_main_v65 (Read.idx_main_v66 (ix2 b j)) = ix1 j :=
    funext fun a => Fin.ext (by match a with | ⟨0, _⟩ => rfl)
  have el : ∀ k : Fin 6144, Read.lidx_main_v64 (ix2 b j) k = ix2 b k := fun k =>
    funext fun a => Fin.ext (by match a with | ⟨0, _⟩ => rfl | ⟨1, _⟩ => rfl)
  have er : ∀ k : Fin 6144, Read.ridx_main_v64 (ix2 b j) k = ix2 k j := fun k =>
    funext fun a => Fin.ext (by match a with | ⟨0, _⟩ => rfl | ⟨1, _⟩ => rfl)
  rw [Read.val_main_v67_apply, Read.val_main_v64_apply, Read.val_main_v66_apply, Read.val_main_v65_apply, e66]
  simp only [el, er, flat_apply, chan_apply, Ideal.addf_def]
  rfl

/-- THE HIDDEN ROW: the reference's hidden activation at entry (b, j) is the specification's, on the gathered
    entity and relation rows of batch row b. -/
theorem hidden_apply (x0 x1 : AI S1024) (x2 : A S100000x200) (x3 : A S500x200) (x4 : A S6144x200) (x5 : A S200)
    (x6 : A S200x288) (x7 : A S288) (x8 x9 x10 x11 : A S1) (x12 x13 x14 x15 : A S32) (x16 x17 x18 x19 : A S200)
    (b : Fin 1024) (j : Fin 200) :
    Read.val_main_v81 (F := Ideal) x0 x1 x2 x3 x4 x5 x6 x7 x8 x9 x10 x11 x12 x13 x14 x15 x16 x17 x18 x19 (ix2 b j)
      = hiddenRow (fun d => Read.val_main_v6 (F := Ideal) x0 x2 (ix2 b d)) (fun d => Read.val_main_v13 (F := Ideal) x1 x3 (ix2 b d))
          (fun d q => x6 (ix2 d q)) (fun q => x7 (ix1 q))
          (x10 (ix1 0)) (Ideal.div (x8 (ix1 0)) (Ideal.sqrt (x11 (ix1 0) + ε))) (x9 (ix1 0))
          (fun o => x14 (ix1 o)) (fun o => Ideal.div (x12 (ix1 o)) (Ideal.sqrt (x15 (ix1 o) + ε))) (fun o => x13 (ix1 o))
          (fun q c => x4 (ix2 q c)) (fun c => x5 (ix1 c))
          (fun c => x18 (ix1 c)) (fun c => Ideal.div (x16 (ix1 c)) (Ideal.sqrt (x19 (ix1 c) + ε))) (fun c => x17 (ix1 c)) j := by
  have e69 : Read.idx_main_v68 (Read.idx_main_v69 (ix2 b j)) = ix1 j :=
    funext fun a => Fin.ext (by match a with | ⟨0, _⟩ => rfl)
  have e76 : Read.idx_main_v75 (Read.idx_main_v76 (ix2 b j)) = ix1 j :=
    funext fun a => Fin.ext (by match a with | ⟨0, _⟩ => rfl)
  have e79 : Read.idx_main_v78 (Read.idx_main_v79 (ix2 b j)) = ix1 j :=
    funext fun a => Fin.ext (by match a with | ⟨0, _⟩ => rfl)
  rw [Read.val_main_v81_apply, Read.val_main_v80_apply, Read.val_main_v77_apply, Read.val_main_v70_apply,
    Read.val_main_v69_apply, Read.val_main_v68_apply, Read.val_main_v76_apply, Read.val_main_v75_apply,
    Read.val_main_v74_apply, Read.val_main_v73_apply, Read.val_main_v72_apply, Read.val_main_v71_apply,
    Read.val_main_cst_6_apply, Read.val_main_v79_apply, Read.val_main_v78_apply, Read.val_main_call0_v0_apply,
    Read.val_main_call0_cst_apply, e69, e76, e79, dense_apply]
  simp only [Ideal.addf_def, Ideal.subf_def, Ideal.mulf_def, Ideal.maximumf_def, Ideal.hostDivf_def,
    Ideal.hostUnary_sqrt_def, Ideal.ofBits_def]
  rfl

/-- THE SCORE: the reference's result at entry (b, n) is the specification's score of batch row b's hidden row
    against entity n. -/
theorem score_apply (x0 x1 : AI S1024) (x2 : A S100000x200) (x3 : A S500x200) (x4 : A S6144x200) (x5 : A S200)
    (x6 : A S200x288) (x7 : A S288) (x8 x9 x10 x11 : A S1) (x12 x13 x14 x15 : A S32) (x16 x17 x18 x19 : A S200)
    (x20 : A S100000) (b : Fin 1024) (n : Fin 100000) :
    Read.val_main_v92 (F := Ideal) x0 x1 x2 x3 x4 x5 x6 x7 x8 x9 x10 x11 x12 x13 x14 x15 x16 x17 x18 x19 x20 (ix2 b n)
      = score (fun d => Read.val_main_v81 (F := Ideal) x0 x1 x2 x3 x4 x5 x6 x7 x8 x9 x10 x11 x12 x13 x14 x15 x16 x17 x18 x19 (ix2 b d)) (fun d => x2 (ix2 n d)) (x20 (ix1 n)) := by
  have e85 : Read.idx_main_v84 (Read.idx_main_v85 (ix2 b n)) = ix1 n :=
    funext fun a => Fin.ext (by match a with | ⟨0, _⟩ => rfl)
  have el : ∀ k : Fin 200, Read.lidx_main_v83 (ix2 b n) k = ix2 b k := fun k =>
    funext fun a => Fin.ext (by match a with | ⟨0, _⟩ => rfl | ⟨1, _⟩ => rfl)
  have er : ∀ k : Fin 200, Read.idx_main_v82 (Read.ridx_main_v83 (ix2 b n) k) = ix2 n k := fun k =>
    funext fun a => Fin.ext (by match a with | ⟨0, _⟩ => rfl | ⟨1, _⟩ => rfl)
  rw [Read.val_main_v92_apply, Read.val_main_v91_apply, Read.val_main_cst_8_apply, Read.val_main_v90_apply,
    Read.val_main_v89_apply, Read.val_main_cst_7_apply, Read.val_main_v88_apply, Read.val_main_v87_apply,
    Read.val_main_v86_apply, Read.val_main_v83_apply, Read.val_main_v85_apply, Read.val_main_v84_apply, e85]
  simp only [Read.val_main_v82_apply, el, er, Ideal.addf_def, Ideal.hostDivf_def, Ideal.hostNegf_def, Ideal.negf_def,
    Ideal.hostUnary_exp_def, Ideal.ofBits_def, ofBits_one_f32]
  rfl

end Cert.ReferenceIdeal.RefRead

end
-- ==== Proof.PreDomain.lean ====
/-
  What the precondition says of the three variance inputs. Besides the finiteness of every float input, the precondition
  asks that each variance plus the constant ε (the float word 0x3727C5AC, about 1e-5) is positive: the one variance of the
  entity rows' affine map, the 32 of the channels', the 200 of the features'. Outside that domain the reference takes the
  square root of a negative number or divides by zero. The three facts are read back here from the printed predicate: its
  value is a conjunction whose last three conjuncts are, each, an all-of over a comparison `v + ε > 0`.
-/
import proofs.«171688_j3453153706530_2_alg».proof.Pre_finite_inputs
import Idealize.ShloMosaic.Lib.ReduceAll
import Idealize.ShloMosaic.Lib.ValueIdx
import Idealize.ShloMosaic.PureOps.Ideal.Laws

noncomputable section

namespace Cert.Pre_finite_inputs.Domain

open Idealize.ShloMosaic Idealize.ShloMosaic.ValueIdx Cert.Pre_finite_inputs

variable [Facts]

/-- The scalar shape has one index. -/
instance : Subsingleton S_.Idx := ⟨fun a b => funext fun d => d.elim0⟩

/-- A greater-than comparison of extended reals that came out 1 says the order. -/
theorem lt_of_cmp_ogt {x y : EReal} (h : Ideal.cmp .ogt x y = 1#1) : y < x := by
  by_contra hn
  simp [Ideal.cmp, hn] at h

/-- Under the precondition each variance plus ε is positive. -/
theorem var_pos (a0 a1 : IVec S1024 32) (a2 : FVec Ideal S100000x200 .f32) (a3 : FVec Ideal S500x200 .f32)
    (a4 : FVec Ideal S6144x200 .f32) (a5 : FVec Ideal S200 .f32) (a6 : FVec Ideal S200x288 .f32) (a7 : FVec Ideal S288 .f32)
    (a8 a9 a10 a11 : FVec Ideal S1 .f32) (a12 a13 a14 a15 : FVec Ideal S32 .f32) (a16 a17 a18 a19 : FVec Ideal S200 .f32)
    (a20 : FVec Ideal S100000 .f32)
    (h : fn (F := Ideal) a0 a1 a2 a3 a4 a5 a6 a7 a8 a9 a10 a11 a12 a13 a14 a15 a16 a17 a18 a19 a20 = fun _ => 1#1) :
    0 < a11 (ix1 (0 : Fin 1)) + Ideal.ofBits .f32 0x3727C5AC#32
      ∧ (∀ o : Fin 32, 0 < a15 (ix1 o) + Ideal.ofBits .f32 0x3727C5AC#32)
      ∧ (∀ j : Fin 200, 0 < a19 (ix1 j) + Ideal.ofBits .f32 0x3727C5AC#32) := by
  have h0 := congrFun h ix0
  dsimp only [fn, fn_part1, fn_part2, fn_part3, fn_part4, fn_part5, fn_part6] at h0
  obtain ⟨h1, h110⟩ := IntOp.andi_eq_one.1 h0
  obtain ⟨h2, h104⟩ := IntOp.andi_eq_one.1 h1
  obtain ⟨-, h98⟩ := IntOp.andi_eq_one.1 h2
  refine ⟨?_, fun o => ?_, fun j => ?_⟩
  · have e : Ideal.cmp .ogt (a11 (ix1 (0 : Fin 1)) + Ideal.ofBits .f32 0x3727C5AC#32) (Ideal.ofBits .f32 0x00000000#32) = 1#1 :=
      Host.reduce_andi_all _ _ _ _ ix0 h98 (ix1 (0 : Fin 1))
    rw [Ideal.ofBits_zero_f32] at e
    exact lt_of_cmp_ogt e
  · have e : Ideal.cmp .ogt (a15 (ix1 o) + Ideal.ofBits .f32 0x3727C5AC#32) (Ideal.ofBits .f32 0x00000000#32) = 1#1 :=
      Host.reduce_andi_all _ _ _ _ ix0 h104 (ix1 o)
    rw [Ideal.ofBits_zero_f32] at e
    exact lt_of_cmp_ogt e
  · have e : Ideal.cmp .ogt (a19 (ix1 j) + Ideal.ofBits .f32 0x3727C5AC#32) (Ideal.ofBits .f32 0x00000000#32) = 1#1 :=
      Host.reduce_andi_all _ _ _ _ ix0 h110 (ix1 j)
    rw [Ideal.ofBits_zero_f32] at e
    exact lt_of_cmp_ogt e

end Cert.Pre_finite_inputs.Domain

end
-- ==== Proof.Bridge.lean ====
/-
  The two programs' results are one function of the arguments. The kernel program's result, entry (b, n), is the score of
  row b of the hidden array against entity n; the reference's result, read at (b, n), is the same score of its own hidden
  row b. The hidden rows agree: both are the hidden row of the same two gathered embedding rows (the host gathers are the
  same terms on both sides) and the same parameters, and the only difference — an affine map's multiplier spelt
  g · (v + ε)^(-1/2) by the kernel and g / √(v + ε) by the reference — disappears because the precondition makes each
  v + ε positive.
-/
import proofs.«171688_j3453153706530_2_alg».proof.Proof.KHost
import proofs.«171688_j3453153706530_2_alg».proof.Proof.RefRead
import proofs.«171688_j3453153706530_2_alg».proof.Proof.PreDomain
import proofs.«171688_j3453153706530_2_alg».proof.Proof.Gen.Pre_finite_inputs
import proofs.«171688_j3453153706530_2_alg».proof.Proof.HiddenArrays
import proofs.«171688_j3453153706530_2_alg».proof.Proof.Gen.ReferenceIdeal.Read

set_option maxRecDepth 16384

noncomputable section

namespace Cert.Proof.Bridge

open Idealize.ShloMosaic Idealize.ShloMosaic.TcCoe Idealize.ShloMosaic.ValueIdx Idealize.SL.Sem
open Idealize.ShloMosaic.StableHlo
open Cert.HyperConv

variable (m : (ℓ : Loc Cert.KernelIdeal.nD Cert.KernelIdeal.τ Cert.KernelIdeal.sig) → Buf (Elt Ideal) ℓ) (ρ : Dev Cert.KernelIdeal.nD → PrngReg)

/-- The entity rows gathered on the kernel program's host are the reference's gather of the same arguments. -/
theorem V1_main_v6 (c : Dev Cert.KernelIdeal.nD) :
    Cert.KernelIdeal.Gen.V1 m ρ c Cert.KernelIdeal.main_v6 = Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) := by
  show StableHlo.after Cert.KernelIdeal.Gen.hostOps0 (Cert.KernelIdeal.Gen.W0 m ρ c) (Proc.devRef .tc Cert.KernelIdeal.main_v6) = _
  dsimp only [Cert.KernelIdeal.Gen.hostOps0]
  after_results
  rfl

/-- The relation rows gathered on the kernel program's host are the reference's gather of the same arguments. -/
theorem V1_main_v13 (c : Dev Cert.KernelIdeal.nD) :
    Cert.KernelIdeal.Gen.V1 m ρ c Cert.KernelIdeal.main_v13 = Cert.ReferenceIdeal.Read.val_main_v13 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) := by
  show StableHlo.after Cert.KernelIdeal.Gen.hostOps0 (Cert.KernelIdeal.Gen.W0 m ρ c) (Proc.devRef .tc Cert.KernelIdeal.main_v13) = _
  dsimp only [Cert.KernelIdeal.Gen.hostOps0]
  after_results
  rfl

/-- Row b of the kernel program's hidden array is the reference's hidden activation at row b, under the precondition. -/
theorem hidden_eq (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) = fun _ => 1#1)
    (b : Fin 1024) (d : Fin 200) :
    Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (ix2 b d)
      = Cert.KernelIdeal.KValue.hiddenArr (Cert.KernelIdeal.Gen.V1 m ρ) c (ix2 (n0 := 1024) (n1 := 200) b d) := by
  obtain ⟨p0, p1, p2⟩ := Cert.Pre_finite_inputs.Domain.var_pos _ _ _ _ _ _ _ _ _ _ _ _ _ _ _ _ _ _ _ _ _ hpre
  rw [Cert.ReferenceIdeal.RefRead.hidden_apply]
  unfold Cert.KernelIdeal.KValue.hiddenArr
  rw [V1_main_v6, V1_main_v13, Cert.KernelIdeal.KValue.V1_main_arg4, Cert.KernelIdeal.KValue.V1_main_arg5, Cert.KernelIdeal.KValue.V1_main_arg6, Cert.KernelIdeal.KValue.V1_main_arg7, Cert.KernelIdeal.KValue.V1_main_arg8, Cert.KernelIdeal.KValue.V1_main_arg9, Cert.KernelIdeal.KValue.V1_main_arg10, Cert.KernelIdeal.KValue.V1_main_arg11, Cert.KernelIdeal.KValue.V1_main_arg12, Cert.KernelIdeal.KValue.V1_main_arg13, Cert.KernelIdeal.KValue.V1_main_arg14, Cert.KernelIdeal.KValue.V1_main_arg15, Cert.KernelIdeal.KValue.V1_main_arg16, Cert.KernelIdeal.KValue.V1_main_arg17, Cert.KernelIdeal.KValue.V1_main_arg18, Cert.KernelIdeal.KValue.V1_main_arg19]
  exact (hiddenOfArrays_div _ _ _ _ _ _ _ _ _ _ _ _ _ _ _ _ _ _ p0 p1 p2 b d).symm

end Cert.Proof.Bridge

end
-- ==== Proof.BridgeResult.lean ====
/-
  The reference's result is the kernel program's result. Entry (b, n) of either is the score of hidden row b against entity
  n; the hidden rows agree by the previous module, and the entity's embedding and bias are the same arguments.
-/
import proofs.«171688_j3453153706530_2_alg».proof.Proof.Bridge

set_option maxRecDepth 16384

noncomputable section

namespace Cert.Proof.Bridge

open Idealize.ShloMosaic Idealize.ShloMosaic.TcCoe Idealize.ShloMosaic.ValueIdx Idealize.SL.Sem
open Cert.HyperConv

variable (m : (ℓ : Loc Cert.KernelIdeal.nD Cert.KernelIdeal.τ Cert.KernelIdeal.sig) → Buf (Elt Ideal) ℓ) (ρ : Dev Cert.KernelIdeal.nD → PrngReg)

/-- From memories agreeing on the arguments, under the precondition, the reference's result is the kernel program's. -/
theorem result_eq (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) = fun _ => 1#1)
    (hag : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
      ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))
      ∧ (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))
      ∧ (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))
      ∧ (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))
      ∧ (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))) :
    Cert.ReferenceIdeal.Value.res_main_v92 m' c = Cert.KernelIdeal.Gen.W9 m ρ c (Proc.devRef .tc Cert.KernelIdeal.main_v19) := by
  obtain ⟨a0, a1, a2, a3, a4, a5, a6, a7, a8, a9, a10, a11, a12, a13, a14, a15, a16, a17, a18, a19, a20⟩ := hag
  have hK : ∀ (b : Fin 1024) (n : Fin 100000),
      Cert.KernelIdeal.Gen.W9 m ρ c (Proc.devRef .tc Cert.KernelIdeal.main_v19) (ix2 (n0 := 1024) (n1 := 100000) b n)
        = score (fun d => Cert.KernelIdeal.KValue.hiddenArr (Cert.KernelIdeal.Gen.V1 m ρ) c (ix2 (n0 := 1024) (n1 := 200) b d))
          (fun d => m ((c : Thread Cert.KernelIdeal.nD Cert.KernelIdeal.τ).loc Cert.KernelIdeal.main_arg2) (ix2 (n0 := 100000) (n1 := 200) n d))
          (m ((c : Thread Cert.KernelIdeal.nD Cert.KernelIdeal.τ).loc Cert.KernelIdeal.main_arg20) (ix1 (n := 100000) n)) := Cert.KernelIdeal.KValue.W9_main_v19 m ρ c
  generalize Cert.KernelIdeal.Gen.W9 m ρ c (Proc.devRef .tc Cert.KernelIdeal.main_v19) = Wf at hK ⊢
  rw [Cert.ReferenceIdeal.Read.val_main_v92_eq, a0, a1, a2, a3, a4, a5, a6, a7, a8, a9, a10, a11, a12, a13, a14, a15, a16, a17, a18, a19, a20]
  funext i
  obtain ⟨b, n, rfl⟩ : ∃ (b : Fin 1024) (n : Fin 100000), i = ix2 b n := ⟨i 0, i 1, eq_ix2 i⟩
  have hrow : (fun d : Fin 200 => Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (ix2 b d))
      = fun d => Cert.KernelIdeal.KValue.hiddenArr (Cert.KernelIdeal.Gen.V1 m ρ) c (ix2 (n0 := 1024) (n1 := 200) b d) :=
    funext fun d => hidden_eq m ρ c hpre b d
  rw [hK b n, Cert.ReferenceIdeal.RefRead.score_apply, hrow]

end Cert.Proof.Bridge

end
-- ==== Proof.lean ====
/-
  The certificate of the hypernetwork-convolution scoring kernel against its reference, on the extended reals.

  Both programs gather an entity row and a relation row per batch row on the host. The kernel program then runs two
  kernels: the first, over 16 blocks of 64 batch rows, turns each pair of rows into a hidden row (an affine map of the
  entity row; a dense layer from the relation row to 32 filters of 9 taps; the filters slid over the entity row; an affine
  map per channel; a dense layer from the 6144 features to 200; an affine map per feature and a clamp at zero); the second,
  over 66 blocks of 1536 entities of the zero-padded entity table, scores every hidden row against every entity (inner
  product, bias, logistic function), and the host keeps the first 100000 columns. The reference does the same on whole
  arrays, the sliding windows as a gather followed by a batched product.

  The three frames are the generated ones (the reference's from its generated run). The idealization changed nothing, so
  the preservation claim is trivial. The value claim: the kernel program's result buffer after the run is the fold of its
  segments at that buffer, which the modules KBlocks0/1, KArray0/1 and KHost read as one function of the arguments, entry by
  entry (HyperBody and ScoreBody read the two kernel bodies); RefRead reads the reference's result the same way; and Bridge
  joins them: the two differ only in how an affine map's multiplier is spelt — g · (v + ε)^(-1/2) against g / √(v + ε) —
  which agree because the precondition makes every v + ε positive (PreDomain, Scale, HiddenArrays).
-/
import proofs.«171688_j3453153706530_2_alg».proof.Defs
import proofs.«171688_j3453153706530_2_alg».proof.Proof.Gen.Kernel
import proofs.«171688_j3453153706530_2_alg».proof.Proof.Gen.Kernel.Skeleton
import proofs.«171688_j3453153706530_2_alg».proof.Proof.Gen.Kernel.Launch
import proofs.«171688_j3453153706530_2_alg».proof.Proof.Gen.Kernel.Points
import proofs.«171688_j3453153706530_2_alg».proof.Proof.Gen.Kernel.Frame
import proofs.«171688_j3453153706530_2_alg».proof.Proof.Gen.KernelIdeal
import proofs.«171688_j3453153706530_2_alg».proof.Proof.Gen.KernelIdeal.Skeleton
import proofs.«171688_j3453153706530_2_alg».proof.Proof.Gen.KernelIdeal.Launch
import proofs.«171688_j3453153706530_2_alg».proof.Proof.Gen.KernelIdeal.Points
import proofs.«171688_j3453153706530_2_alg».proof.Proof.Gen.KernelIdeal.Frame
import proofs.«171688_j3453153706530_2_alg».proof.Proof.Gen.ReferenceIdeal
import proofs.«171688_j3453153706530_2_alg».proof.Proof.Gen.ReferenceIdeal.Run
import proofs.«171688_j3453153706530_2_alg».proof.Proof.Gen.ReferenceIdeal.Read
import proofs.«171688_j3453153706530_2_alg».proof.Proof.Gen.Pre_finite_inputs
import proofs.«171688_j3453153706530_2_alg».proof.Proof.KRun
import proofs.«171688_j3453153706530_2_alg».proof.Proof.KHost
import proofs.«171688_j3453153706530_2_alg».proof.Proof.BridgeResult
import Idealize.ShloMosaic.Adequacy
import Idealize.ShloMosaic.Init

noncomputable section

namespace Cert.Proof

open Idealize.ShloMosaic Idealize.SL.Sem

/-- The kernel program as printed runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The idealized reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, under the precondition, both idealized programs run and end with the same
    result: the kernel program's result buffer at the fold of its segments, the reference's at the same function. -/
theorem algebraic : Cert.algebraic_KernelIdeal_ReferenceIdeal := by
  intro m ρ m' ρ' hpre hagree
  refine ⟨fun c => Cert.KernelIdeal.Gen.W9 m ρ c (Proc.devRef .tc Cert.KernelIdeal.main_v19),
    Cert.KernelIdeal.KValue.run_value m ρ, ?_⟩
  refine (θ_run Cert.ReferenceIdeal.defs _ _).mono (fun r h c => ⟨(h c).1.trans ?_, (h c).2⟩)
    (Cert.ReferenceIdeal.Value.run (F := Ideal) m' ρ')
  exact Bridge.result_eq m ρ m' c (hpre c) (hagree c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
